-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : IVec S4096x128 32) (main_arg2 : IVec S4096x128 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  main_v3
-- ==== Kernel.lean ====
abbrev S4096x128 : Shape := ⟨2, ![4096, 128]⟩
abbrev S2x8x128 : Shape := ⟨3, ![2, 8, 128]⟩
abbrev S128x128 : Shape := ⟨2, ![128, 128]⟩
abbrev S1x8x128 : Shape := ⟨3, ![1, 8, 128]⟩
abbrev S8x128 : Shape := ⟨2, ![8, 128]⟩
abbrev S128x128x1 : Shape := ⟨3, ![128, 128, 1]⟩
abbrev S128x1x128 : Shape := ⟨3, ![128, 1, 128]⟩
abbrev S128x128x128 : Shape := ⟨3, ![128, 128, 128]⟩
abbrev S128x1 : Shape := ⟨2, ![128, 1]⟩
abbrev S128x1x1 : Shape := ⟨3, ![128, 1, 1]⟩
abbrev S1x1 : Shape := ⟨2, ![1, 1]⟩
abbrev S128 : Shape := ⟨1, ![128]⟩
abbrev S1 : Shape := ⟨1, ![1]⟩
abbrev S1x1x1 : Shape := ⟨3, ![1, 1, 1]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096x128, .i32⟩
  | .hbm, ⟨2, _⟩ => ⟨S4096x128, .i32⟩
  | .hbm, ⟨3, _⟩ => ⟨S2x8x128, .f32⟩
  | .hbm, ⟨4, _⟩ => ⟨S2x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i1⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .i32⟩
  | .local _ .vmem, ⟨3, _⟩ => ⟨S128x128, .i32⟩
  | .local _ .vmem, ⟨4, _⟩ => ⟨S128x128, .i32⟩
  | .local _ .vmem, ⟨5, _⟩ => ⟨S128x128, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S128x128_S128x128_0_0 : ∀ a, (![0, 0] : Fin 2 → Nat) a + S128x128.size a ≤ S128x128.size a
  h_S128x128 : 0 < S128x128.numel
  natLt_1_32 : 1 < 32
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  reduces_S128x128x1_S128x1 : S128x128x1.Reduces [1] S128x1
  shapeCasts_S128x1_S128x1x1 : S128x1.ShapeCasts S128x1x1
  reduces_S128x1x1_S1x1 : S128x1x1.Reduces [0] S1x1
  reduces_S128x128_S128 : S128x128.Reduces [1] S128
  shapeCasts_S128_S128x1 : S128.ShapeCasts S128x1
  reduces_S128x1_S1 : S128x1.Reduces [0] S1
  shapeCasts_S1_S1x1 : S1.ShapeCasts S1x1
  inb_S1x8x128_S1x1x1_0_0_0 : ∀ a, (![0, 0, 0] : Fin 3 → Nat) a + S1x1x1.size a ≤ S1x8x128.size a
  h_S1x1x1 : 0 < S1x1x1.numel
  shapeCasts_S1x1x1_S1x1 : S1x1x1.ShapeCasts S1x1
  shapeCasts_S1x1_S1x1x1 : S1x1.ShapeCasts S1x1x1
  reducesTo_S2x8x128_S_d0_1_2 : S2x8x128.ReducesTo [0, 1, 2] S_
  h_S_ : 0 < S_.numel
  dot_S128x128x128_S128x128x1_S128x128x1_2_1_1_2_0_0_wf : DotDims.WF S128x128x128 S128x128x1 S128x128x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x128.size a
  hwx0_1 : ∀ i : grid0.Coords, EltTy.bits .i32 = 32 ∨ (Rect.block (s := S4096x128) S128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S4096x128.size a
  hwx0_2 : ∀ i : grid0.Coords, EltTy.bits .i32 = 32 ∨ (Rect.block (s := S4096x128) S128x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def dot_S128x128x128_S128x128x1_S128x128x1_2_1_1_2_0_0 : DotDims S128x128x128 S128x128x1 S128x128x1 where
  lhsContracting := [2]
  rhsContracting := [1]
  lhsNonContracting := [1]
  rhsNonContracting := [2]
  lhsBatch := [0]
  rhsBatch := [0]
  wf := dot_S128x128x128_S128x128x1_S128x128x1_2_1_1_2_0_0_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S_ : Shape := ⟨0, ![]⟩
abbrev S4096x128x1 : Shape := ⟨3, ![4096, 128, 1]⟩
abbrev S4096x1x128 : Shape := ⟨3, ![4096, 1, 128]⟩
abbrev S4096x128x128 : Shape := ⟨3, ![4096, 128, 128]⟩

abbrev nBuf : Space → Nat
  | .hbm => 42
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .i32⟩
  | .hbm, ⟨2, _⟩ => ⟨S4096x128, .i32⟩
  | .hbm, ⟨3, _⟩ => ⟨S_, .i32⟩
  | .hbm, ⟨4, _⟩ => ⟨S4096x128, .i32⟩
  | .hbm, ⟨5, _⟩ => ⟨S4096x128, .i1⟩
  | .hbm, ⟨6, _⟩ => ⟨S4096x128, .f32⟩
  | .hbm, ⟨7, _⟩ => ⟨S_, .i32⟩
  | .hbm, ⟨8, _⟩ => ⟨S4096x128, .i32⟩
  | .hbm, ⟨9, _⟩ => ⟨S4096x128, .i1⟩
  | .hbm, ⟨10, _⟩ => ⟨S_, .i32⟩
  | .hbm, ⟨11, _⟩ => ⟨S4096x128, .i32⟩
  | .hbm, ⟨12, _⟩ => ⟨S4096x128, .i1⟩
  | .hbm, ⟨13, _⟩ => ⟨S4096x128, .i1⟩
  | .hbm, ⟨14, _⟩ => ⟨S4096x128, .f32⟩
  | .hbm, ⟨15, _⟩ => ⟨S4096x128x1, .f32⟩
  | .hbm, ⟨16, _⟩ => ⟨S4096x1x128, .f32⟩
  | .hbm, ⟨17, _⟩ => ⟨S4096x128x128, .f32⟩
  | .hbm, ⟨18, _⟩ => ⟨S4096x128x128, .f32⟩
  | .hbm, ⟨19, _⟩ => ⟨S4096x128x128, .f32⟩
  | .hbm, ⟨20, _⟩ => ⟨S4096x128x1, .f32⟩
  | .hbm, ⟨21, _⟩ => ⟨S4096x1x128, .f32⟩
  | .hbm, ⟨22, _⟩ => ⟨S4096x128x128, .f32⟩
  | .hbm, ⟨23, _⟩ => ⟨S4096x128x128, .f32⟩
  | .hbm, ⟨24, _⟩ => ⟨S4096x128x128, .f32⟩
  | .hbm, ⟨25, _⟩ => ⟨S_, .f32⟩
  | .hbm, ⟨26, _⟩ => ⟨S4096x128x128, .f32⟩
  | .hbm, ⟨27, _⟩ => ⟨S4096x128x128, .f32⟩
  | .hbm, ⟨28, _⟩ => ⟨S_, .f32⟩
  | .hbm, ⟨29, _⟩ => ⟨S4096x128x128, .f32⟩
  | .hbm, ⟨30, _⟩ => ⟨S4096x128x128, .f32⟩
  | .hbm, ⟨31, _⟩ => ⟨S4096x128x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S4096x128_S4096x128x1_0_1 : S4096x128.BroadcastsInDim S4096x128x1 (![0, 1] : Fin 2 → Fin S4096x128x1.rank)
  bcast_S4096x128_S4096x1x128_0_2 : S4096x128.BroadcastsInDim S4096x1x128 (![0, 2] : Fin 2 → Fin S4096x1x128.rank)
  bcast_S4096x128x1_S4096x128x128_0_1_2 : S4096x128x1.BroadcastsInDim S4096x128x128 (![0, 1, 2] : Fin 3 → Fin S4096x128x128.rank)
  bcast_S4096x1x128_S4096x128x128_0_1_2 : S4096x1x128.BroadcastsInDim S4096x128x128 (![0, 1, 2] : Fin 3 → Fin S4096x128x128.rank)
  bcast_S_S4096x128x128 : S_.BroadcastsInDim S4096x128x128 (![] : Fin 0 → Fin S4096x128x128.rank)
  reducesTo_S4096x128x128_S_d0_1_2 : S4096x128x128.ReducesTo [0, 1, 2] S_
  h_S_ : 0 < S_.numel

variable [Facts₀]

class Facts : Prop extends Facts₀ where

variable [Facts]
-- ==== Proof.OutPieces.lean ====
/-
  What one run of the kernel body leaves in its two output blocks, entry by entry.

  Each output block is [1, 8, 128]. At the first point of a core's sweep the body fills the block with zeros and then adds
  the point's term into entry (0, 0, 0); at every later point it only adds the point's term into entry (0, 0, 0) of what
  the point before left. The term of the first output is the block's loss sum, that of the second its pair count.
-/
import proofs.«157388_j9783935500651_2_alg».proof.Proof.Gen.KernelIdeal.Frame
import Idealize.ShloMosaic.Lib.Pipeline.Value
import Idealize.ShloMosaic.Lib.WritesUnit
import Idealize.ShloMosaic.Lib.Tactic
import Idealize.ShloMosaic.Lib.ValueIdx
import Idealize.ShloMosaic.PureOps.Ideal
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.Pieces

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The loss term one block of 128 rows adds: the one entry of the body's [1, 1] loss value. -/
def blkLoss (x0 : Vec Ideal S128x128 .f32) (x1 x2 : Vec Ideal S128x128 .i32) : EReal :=
  k0_pay7 (F := Ideal) x0 x1 x2 (ix2 0 0)

/-- The pair count one block of 128 rows adds: the one entry of the body's [1, 1] count value. -/
def blkCount (x1 x2 : Vec Ideal S128x128 .i32) : EReal :=
  shapeCast S1x1 (multiReduction (F := Ideal) .add [0] S1 (k0_pay8 (F := Ideal) x1 x2) 0x00000000#32 reduces_S128x1_S1 (.inl rfl) rfl)
    shapeCasts_S1_S1x1 (ix2 0 0)

/-- A one-entry [1, 1, 1] value recast as [1, 1], and back: the same entry. -/
theorem cast_111_11 (w : S1x1x1.Idx → EReal) (i : S1x1.Idx) (j : S1x1x1.Idx) :
    shapeCast S1x1 w shapeCasts_S1x1x1_S1x1 i = w j :=
  shapeCast_apply w _ i j (by
    have h1 : (S1x1x1.rowMajor j).val < 1 := (S1x1x1.rowMajor j).isLt
    have h2 : (S1x1.rowMajor i).val < 1 := (S1x1.rowMajor i).isLt
    omega)

theorem cast_11_111 (w : S1x1.Idx → EReal) (i : S1x1x1.Idx) (j : S1x1.Idx) :
    shapeCast S1x1x1 w shapeCasts_S1x1_S1x1x1 i = w j :=
  shapeCast_apply w _ i j (by
    have h1 : (S1x1x1.rowMajor i).val < 1 := (S1x1x1.rowMajor i).isLt
    have h2 : (S1x1.rowMajor j).val < 1 := (S1x1.rowMajor j).isLt
    omega)

/-- The first output's stored entry: what the entry held plus the block's loss value. -/
theorem pay1_apply (v32 : FVec Ideal S1x1 .f32) (v40 : Vec Ideal S1x1x1 .f32) (z : S1x1x1.Idx) :
    k0_pay1 (F := Ideal) v32 v40 z = v40 z + v32 (ix2 0 0) := by
  unfold k0_pay1
  rw [cast_11_111 _ z (ix2 0 0)]
  show FloatOps.addf (shapeCast S1x1 (v40 : S1x1x1.Idx → EReal) shapeCasts_S1x1x1_S1x1 (ix2 0 0)) (v32 (ix2 0 0)) = _
  rw [cast_111_11 _ (ix2 0 0) z]
  rfl

/-- The second output's stored entry: what the entry held plus the block's pair count. -/
theorem pay2_apply (v37 : FVec Ideal S128x1 .f32) (v46 : Vec Ideal S1x1x1 .f32) (z : S1x1x1.Idx) :
    k0_pay2 (F := Ideal) v37 v46 z = v46 z
      + shapeCast S1x1 (multiReduction (F := Ideal) .add [0] S1 v37 0x00000000#32 reduces_S128x1_S1 (.inl rfl) rfl) shapeCasts_S1_S1x1 (ix2 0 0) := by
  unfold k0_pay2
  rw [cast_11_111 _ z (ix2 0 0)]
  show FloatOps.addf (shapeCast S1x1 (v46 : S1x1x1.Idx → EReal) shapeCasts_S1x1x1_S1x1 (ix2 0 0))
    (shapeCast S1x1 (multiReduction (F := Ideal) .add [0] S1 v37 0x00000000#32 reduces_S128x1_S1 (.inl rfl) rfl) shapeCasts_S1_S1x1 (ix2 0 0)) = _
  rw [cast_111_11 _ (ix2 0 0) z]
  rfl

/-- The zero fills. -/
theorem pay3_apply (y : S1x8x128.Idx) : k0_pay3 (F := Ideal) y = 0 := by
  show Ideal.ofBits .f32 0x00000000#32 = 0
  exact Ideal.ofBits_zero_f32
theorem pay4_apply (y : S1x8x128.Idx) : k0_pay4 (F := Ideal) y = 0 := by
  show Ideal.ofBits .f32 0x00000000#32 = 0
  exact Ideal.ofBits_zero_f32

/-- The one index of a [1, 1, 1] store at offsets (0, 0, 0), and that it is where an index with both long coordinates
    zero sits. -/
theorem at_origin (y : S1x8x128.Idx) (h : (y 1).val = 0 ∧ (y 2).val = 0) (a : Fin 3) :
    (y a).val = (![0, 0, 0] : Fin 3 → Nat) a + ((ix3 (0 : Fin 1) (0 : Fin 1) (0 : Fin 1) : (⟨3, ![1, 1, 1]⟩ : Shape).Idx) a).val := by
  have h0 : (y 0).val < 1 := (y 0).isLt
  match a with
  | ⟨0, _⟩ => show (y 0).val = 0 + 0; omega
  | ⟨1, _⟩ => show (y 1).val = 0 + 0; omega
  | ⟨2, _⟩ => show (y 2).val = 0 + 0; omega

theorem at_self (y : S1x8x128.Idx) (a : Fin 3) : (y a).val = (![0, 0, 0] : Fin 3 → Nat) a + (y a).val := by
  match a with
  | ⟨0, _⟩ => exact (Nat.zero_add _).symm
  | ⟨1, _⟩ => exact (Nat.zero_add _).symm
  | ⟨2, _⟩ => exact (Nat.zero_add _).symm

/-- An index with a nonzero long coordinate is outside the [1, 1, 1] store at the origin. -/
theorem off_origin (y : S1x8x128.Idx) (h : ¬((y 1).val = 0 ∧ (y 2).val = 0)) :
    ∃ a : Fin 3, (y a).val < (![0, 0, 0] : Fin 3 → Nat) a ∨ (![0, 0, 0] : Fin 3 → Nat) a + (![1, 1, 1] : Fin 3 → Nat) a ≤ (y a).val := by
  rcases not_and_or.mp h with h1 | h2
  · exact ⟨1, Or.inr (by show 0 + 1 ≤ (y 1).val; omega)⟩
  · exact ⟨2, Or.inr (by show 0 + 1 ≤ (y 2).val; omega)⟩

/-- FIRST POINT OF A SWEEP, first output: entry (0, 0, 0) holds the block's loss, every other entry zero. -/
theorem outA3 (c : Dev nD) (i : grid0.Coords) (a2 : Memref sig .tc .vmem S128x128 .f32) (h2 : a2.IsWhole) (a3 : Memref sig .tc .vmem S128x128 .i32) (h3 : a3.IsWhole) (a4 : Memref sig .tc .vmem S128x128 .i32) (h4 : a4.IsWhole) (a5 : Memref sig .tc .vmem S1x8x128 .f32) (h5 : a5.IsWhole) (a6 : Memref sig .tc .vmem S1x8x128 .f32) (h6 : a6.IsWhole) (hc : cond0_0 i)
    (x0 : Vec Ideal S128x128 .f32) (x1 x2 : Vec Ideal S128x128 .i32) (y : S1x8x128.Idx) :
    out0_A_3 (F := Ideal) c i a2 h2 a3 h3 a4 h4 a5 h5 a6 h6 hc x0 x1 x2 y
      = if (y 1).val = 0 ∧ (y 2).val = 0 then blkLoss x0 x1 x2 else 0 := by
  unfold out0_A_3 kernelRun0_A
  dsimp only
  sl_unfold_words
  by_cases h : (y 1).val = 0 ∧ (y 2).val = 0
  · rw [if_pos h]
    refine (View.read_writes_cons_unit_of_mem _ _ inb_S1x8x128_S1x1x1_0_0_0 _ _ y (ix3 (0 : Fin 1) (0 : Fin 1) (0 : Fin 1)) rfl (at_origin y h)).trans ?_
    rw [pay1_apply]
    simp only [View.readAt_eq_ld, h2.read_unread, h3.read_unread, h4.read_unread, View.ld_unit_zero (S := S128x128) hz2]
    rw [View.readCov_eq_canon_ld _ _ _ (fun y => ⟨_, List.mem_singleton_self _, View.mem_set_unit_zero hz3 inb_S1x8x128_S1x8x128_0_0_0 y⟩),
      View.canon_unit_zero hz3]
    show k0_pay3 (F := Ideal) _ + blkLoss x0 x1 x2 = _
    rw [pay3_apply, zero_add]
  · rw [if_neg h]
    obtain ⟨a, ha⟩ := off_origin y h
    refine (View.read_writes_cons_unit_of_not_mem _ _ inb_S1x8x128_S1x1x1_0_0_0 _ _ y rfl a ha).trans ?_
    refine (View.read_writes_cons_unit_of_mem _ _ inb_S1x8x128_S1x8x128_0_0_0 _ _ y y rfl (at_self y)).trans ?_
    exact pay3_apply y

/-- FIRST POINT OF A SWEEP, second output: entry (0, 0, 0) holds the block's pair count, every other entry zero. -/
theorem outA4 (c : Dev nD) (i : grid0.Coords) (a2 : Memref sig .tc .vmem S128x128 .f32) (h2 : a2.IsWhole) (a3 : Memref sig .tc .vmem S128x128 .i32) (h3 : a3.IsWhole) (a4 : Memref sig .tc .vmem S128x128 .i32) (h4 : a4.IsWhole) (a5 : Memref sig .tc .vmem S1x8x128 .f32) (h5 : a5.IsWhole) (a6 : Memref sig .tc .vmem S1x8x128 .f32) (h6 : a6.IsWhole) (hc : cond0_0 i)
    (x0 : Vec Ideal S128x128 .f32) (x1 x2 : Vec Ideal S128x128 .i32) (y : S1x8x128.Idx) :
    out0_A_4 (F := Ideal) c i a2 h2 a3 h3 a4 h4 a5 h5 a6 h6 hc x0 x1 x2 y
      = if (y 1).val = 0 ∧ (y 2).val = 0 then blkCount x1 x2 else 0 := by
  unfold out0_A_4 kernelRun0_A
  dsimp only
  sl_unfold_words
  by_cases h : (y 1).val = 0 ∧ (y 2).val = 0
  · rw [if_pos h]
    refine (View.read_writes_cons_unit_of_mem _ _ inb_S1x8x128_S1x1x1_0_0_0 _ _ y (ix3 (0 : Fin 1) (0 : Fin 1) (0 : Fin 1)) rfl (at_origin y h)).trans ?_
    rw [pay2_apply]
    simp only [View.readAt_eq_ld, h3.read_unread, h4.read_unread, View.ld_unit_zero (S := S128x128) hz2]
    rw [View.readCov_eq_canon_ld _ _ _ (fun y => ⟨_, List.mem_singleton_self _, View.mem_set_unit_zero hz3 inb_S1x8x128_S1x8x128_0_0_0 y⟩),
      View.canon_unit_zero hz3]
    show k0_pay4 (F := Ideal) _ + blkCount x1 x2 = _
    rw [pay4_apply, zero_add]
  · rw [if_neg h]
    obtain ⟨a, ha⟩ := off_origin y h
    refine (View.read_writes_cons_unit_of_not_mem _ _ inb_S1x8x128_S1x1x1_0_0_0 _ _ y rfl a ha).trans ?_
    refine (View.read_writes_cons_unit_of_mem _ _ inb_S1x8x128_S1x8x128_0_0_0 _ _ y y rfl (at_self y)).trans ?_
    exact pay4_apply y

/-- A LATER POINT, first output: entry (0, 0, 0) grows by the block's loss, every other entry stays. -/
theorem outB3 (c : Dev nD) (i : grid0.Coords) (a2 : Memref sig .tc .vmem S128x128 .f32) (h2 : a2.IsWhole) (a3 : Memref sig .tc .vmem S128x128 .i32) (h3 : a3.IsWhole) (a4 : Memref sig .tc .vmem S128x128 .i32) (h4 : a4.IsWhole) (a5 : Memref sig .tc .vmem S1x8x128 .f32) (h5 : a5.IsWhole) (a6 : Memref sig .tc .vmem S1x8x128 .f32) (h6 : a6.IsWhole) (hc : ¬cond0_0 i)
    (x0 : Vec Ideal S128x128 .f32) (x1 x2 : Vec Ideal S128x128 .i32) (xo3 xo4 : Vec Ideal S1x8x128 .f32) (y : S1x8x128.Idx) :
    out0_B_3 (F := Ideal) c i a2 h2 a3 h3 a4 h4 a5 h5 a6 h6 hc x0 x1 x2 xo3 xo4 y
      = if (y 1).val = 0 ∧ (y 2).val = 0 then xo3 y + blkLoss x0 x1 x2 else xo3 y := by
  unfold out0_B_3 kernelRun0_B
  dsimp only
  sl_unfold_words
  by_cases h : (y 1).val = 0 ∧ (y 2).val = 0
  · rw [if_pos h]
    refine (View.read_writes_cons_unit_of_mem _ _ inb_S1x8x128_S1x1x1_0_0_0 _ _ y (ix3 (0 : Fin 1) (0 : Fin 1) (0 : Fin 1)) rfl (at_origin y h)).trans ?_
    rw [pay1_apply]
    simp only [View.readAt_eq_ld, h2.read_unread, h3.read_unread, h4.read_unread, h5.read_unread, View.ld_unit_zero (S := S128x128) hz2]
    show xo3 _ + blkLoss x0 x1 x2 = _
    congr 1
    refine congrArg xo3 (funext fun a => Fin.ext ?_)
    match a with
    | ⟨0, _⟩ => show 0 + 1 * 0 = (y 0).val; have h0 : (y 0).val < 1 := (y 0).isLt; omega
    | ⟨1, _⟩ => show 0 + 1 * 0 = (y 1).val; omega
    | ⟨2, _⟩ => show 0 + 1 * 0 = (y 2).val; omega
  · rw [if_neg h]
    obtain ⟨a, ha⟩ := off_origin y h
    refine (View.read_writes_cons_unit_of_not_mem _ _ inb_S1x8x128_S1x1x1_0_0_0 _ _ y rfl a ha).trans ?_
    rw [View.writes_nil, h5.read_unread]

/-- A LATER POINT, second output: entry (0, 0, 0) grows by the block's pair count, every other entry stays. -/
theorem outB4 (c : Dev nD) (i : grid0.Coords) (a2 : Memref sig .tc .vmem S128x128 .f32) (h2 : a2.IsWhole) (a3 : Memref sig .tc .vmem S128x128 .i32) (h3 : a3.IsWhole) (a4 : Memref sig .tc .vmem S128x128 .i32) (h4 : a4.IsWhole) (a5 : Memref sig .tc .vmem S1x8x128 .f32) (h5 : a5.IsWhole) (a6 : Memref sig .tc .vmem S1x8x128 .f32) (h6 : a6.IsWhole) (hc : ¬cond0_0 i)
    (x0 : Vec Ideal S128x128 .f32) (x1 x2 : Vec Ideal S128x128 .i32) (xo3 xo4 : Vec Ideal S1x8x128 .f32) (y : S1x8x128.Idx) :
    out0_B_4 (F := Ideal) c i a2 h2 a3 h3 a4 h4 a5 h5 a6 h6 hc x0 x1 x2 xo3 xo4 y
      = if (y 1).val = 0 ∧ (y 2).val = 0 then xo4 y + blkCount x1 x2 else xo4 y := by
  unfold out0_B_4 kernelRun0_B
  dsimp only
  sl_unfold_words
  by_cases h : (y 1).val = 0 ∧ (y 2).val = 0
  · rw [if_pos h]
    refine (View.read_writes_cons_unit_of_mem _ _ inb_S1x8x128_S1x1x1_0_0_0 _ _ y (ix3 (0 : Fin 1) (0 : Fin 1) (0 : Fin 1)) rfl (at_origin y h)).trans ?_
    rw [pay2_apply]
    simp only [View.readAt_eq_ld, h3.read_unread, h4.read_unread, h6.read_unread, View.ld_unit_zero (S := S128x128) hz2]
    show xo4 _ + blkCount x1 x2 = _
    congr 1
    refine congrArg xo4 (funext fun a => Fin.ext ?_)
    match a with
    | ⟨0, _⟩ => show 0 + 1 * 0 = (y 0).val; have h0 : (y 0).val < 1 := (y 0).isLt; omega
    | ⟨1, _⟩ => show 0 + 1 * 0 = (y 1).val; omega
    | ⟨2, _⟩ => show 0 + 1 * 0 = (y 2).val; omega
  · rw [if_neg h]
    obtain ⟨a, ha⟩ := off_origin y h
    refine (View.read_writes_cons_unit_of_not_mem _ _ inb_S1x8x128_S1x1x1_0_0_0 _ _ y rfl a ha).trans ?_
    rw [View.writes_nil, h6.read_unread]

end Cert.KernelIdeal.Pieces

end
-- ==== Proof.Accum.lean ====
/-
  What the two output blocks hold after each grid point: running sums over a core's sweep.

  The 32 grid points are two sweeps of 16 (point 16·p + q is step q of core p). Within a sweep the output blocks are not
  written back, so after step q the entry (0, 0, 0) of the first block holds the sum of the loss terms of the sweep's
  points 0 … q, the entry (0, 0, 0) of the second the sum of their pair counts, and every other entry is zero: by
  induction on the step, the first step being the one that zero-fills.
-/
import proofs.«157388_j9783935500651_2_alg».proof.Proof.OutPieces

noncomputable section

open Idealize.ShloMosaic Idealize.ShloMosaic.TcCoe Idealize.SL.Sem
open Idealize.ShloMosaic.ValueIdx
open scoped BigOperators

namespace Cert.KernelIdeal.Accum

open Cert.KernelIdeal Cert.KernelIdeal.Gen Cert.KernelIdeal.Pieces

variable (m : (ℓ : Loc nD τ sig) → Buf (Elt Ideal) ℓ)

/-- The loss term of grid point k (zero past the grid). -/
def lossAt (c : Dev nD) (k : ℕ) : EReal :=
  if h : k < cfg0.N then blkLoss (iblk m c 0 ⟨k, h⟩) (iblk m c 1 ⟨k, h⟩) (iblk m c 2 ⟨k, h⟩) else 0

/-- The pair count of grid point k (zero past the grid). -/
def countAt (c : Dev nD) (k : ℕ) : EReal :=
  if h : k < cfg0.N then blkCount (iblk m c 1 ⟨k, h⟩) (iblk m c 2 ⟨k, h⟩) else 0

/-- A [1, 8, 128] block that is v at entry (0, 0, 0) and zero elsewhere. -/
def atOrigin (v : EReal) : Vec Ideal S1x8x128 .f32 := fun y => if (y 1).val = 0 ∧ (y 2).val = 0 then v else 0

/-- THE RUNNING SUMS: after step q of sweep p. -/
theorem outs_eq (c : Dev nD) (p : ℕ) : ∀ (q : ℕ) (hq : q < 16) (n : ℕ) (hn : n < cfg0.N), n = 16 * p + q →
    outsAt0 m c n hn = (atOrigin (∑ k ∈ Finset.range (q + 1), lossAt m c (16 * p + k)),
      atOrigin (∑ k ∈ Finset.range (q + 1), countAt m c (16 * p + k)))
  | 0, hq, n, hn, e => by
    subst e
    have h0 : (⟨16 * p + 0, hn⟩ : Fin cfg0.N).val % 16 = 0 := by show (16 * p + 0) % 16 = 0; omega
    rw [outsAt0_A m c ⟨16 * p + 0, hn⟩ h0]
    refine congrArg₂ Prod.mk (funext fun y => ?_) (funext fun y => ?_)
    · refine (outA3 c (grid0.coords ⟨16 * p + 0, hn⟩) (ms0_0 ⟨16 * p + 0, hn⟩) (hs0_0 ⟨16 * p + 0, hn⟩) (ms0_1 ⟨16 * p + 0, hn⟩) (hs0_1 ⟨16 * p + 0, hn⟩) (ms0_2 ⟨16 * p + 0, hn⟩) (hs0_2 ⟨16 * p + 0, hn⟩) (ms0_3 ⟨16 * p + 0, hn⟩) (hs0_3 ⟨16 * p + 0, hn⟩) (ms0_4 ⟨16 * p + 0, hn⟩) (hs0_4 ⟨16 * p + 0, hn⟩) ((hcond0_0 ⟨16 * p + 0, hn⟩).mpr h0) (iblk m c 0 ⟨16 * p + 0, hn⟩) (iblk m c 1 ⟨16 * p + 0, hn⟩) (iblk m c 2 ⟨16 * p + 0, hn⟩) y).trans ?_
      simp only [atOrigin, lossAt, zero_add, Finset.sum_range_one, dif_pos hn]
    · refine (outA4 c (grid0.coords ⟨16 * p + 0, hn⟩) (ms0_0 ⟨16 * p + 0, hn⟩) (hs0_0 ⟨16 * p + 0, hn⟩) (ms0_1 ⟨16 * p + 0, hn⟩) (hs0_1 ⟨16 * p + 0, hn⟩) (ms0_2 ⟨16 * p + 0, hn⟩) (hs0_2 ⟨16 * p + 0, hn⟩) (ms0_3 ⟨16 * p + 0, hn⟩) (hs0_3 ⟨16 * p + 0, hn⟩) (ms0_4 ⟨16 * p + 0, hn⟩) (hs0_4 ⟨16 * p + 0, hn⟩) ((hcond0_0 ⟨16 * p + 0, hn⟩).mpr h0) (iblk m c 0 ⟨16 * p + 0, hn⟩) (iblk m c 1 ⟨16 * p + 0, hn⟩) (iblk m c 2 ⟨16 * p + 0, hn⟩) y).trans ?_
      simp only [atOrigin, countAt, zero_add, Finset.sum_range_one, dif_pos hn]
  | q + 1, hq, n, hn, e => by
    subst e
    have hB : ¬(⟨16 * p + (q + 1), hn⟩ : Fin cfg0.N).val % 16 = 0 := by show ¬(16 * p + (q + 1)) % 16 = 0; omega
    have ih := outs_eq c p q (by omega) ((⟨16 * p + (q + 1), hn⟩ : Fin cfg0.N).val - 1)
      (Nat.lt_of_le_of_lt (Nat.sub_le _ _) (⟨16 * p + (q + 1), hn⟩ : Fin cfg0.N).isLt) (by show 16 * p + (q + 1) - 1 = 16 * p + q; omega)
    rw [outsAt0_B m c ⟨16 * p + (q + 1), hn⟩ hB, ih]
    refine congrArg₂ Prod.mk (funext fun y => ?_) (funext fun y => ?_)
    · refine (outB3 c (grid0.coords ⟨16 * p + (q + 1), hn⟩) (ms0_0 ⟨16 * p + (q + 1), hn⟩) (hs0_0 ⟨16 * p + (q + 1), hn⟩) (ms0_1 ⟨16 * p + (q + 1), hn⟩) (hs0_1 ⟨16 * p + (q + 1), hn⟩) (ms0_2 ⟨16 * p + (q + 1), hn⟩) (hs0_2 ⟨16 * p + (q + 1), hn⟩) (ms0_3 ⟨16 * p + (q + 1), hn⟩) (hs0_3 ⟨16 * p + (q + 1), hn⟩) (ms0_4 ⟨16 * p + (q + 1), hn⟩) (hs0_4 ⟨16 * p + (q + 1), hn⟩) (fun h => hB ((hcond0_0 ⟨16 * p + (q + 1), hn⟩).mp h)) (iblk m c 0 ⟨16 * p + (q + 1), hn⟩) (iblk m c 1 ⟨16 * p + (q + 1), hn⟩) (iblk m c 2 ⟨16 * p + (q + 1), hn⟩) _ _ y).trans ?_
      simp only [atOrigin]
      split
      · rw [Finset.sum_range_succ _ (q + 1), lossAt, dif_pos hn]
      · rfl
    · refine (outB4 c (grid0.coords ⟨16 * p + (q + 1), hn⟩) (ms0_0 ⟨16 * p + (q + 1), hn⟩) (hs0_0 ⟨16 * p + (q + 1), hn⟩) (ms0_1 ⟨16 * p + (q + 1), hn⟩) (hs0_1 ⟨16 * p + (q + 1), hn⟩) (ms0_2 ⟨16 * p + (q + 1), hn⟩) (hs0_2 ⟨16 * p + (q + 1), hn⟩) (ms0_3 ⟨16 * p + (q + 1), hn⟩) (hs0_3 ⟨16 * p + (q + 1), hn⟩) (ms0_4 ⟨16 * p + (q + 1), hn⟩) (hs0_4 ⟨16 * p + (q + 1), hn⟩) (fun h => hB ((hcond0_0 ⟨16 * p + (q + 1), hn⟩).mp h)) (iblk m c 0 ⟨16 * p + (q + 1), hn⟩) (iblk m c 1 ⟨16 * p + (q + 1), hn⟩) (iblk m c 2 ⟨16 * p + (q + 1), hn⟩) _ _ y).trans ?_
      simp only [atOrigin]
      split
      · rw [Finset.sum_range_succ _ (q + 1), countAt, dif_pos hn]
      · rfl

end Cert.KernelIdeal.Accum

end
-- ==== Proof.Final.lean ====
/-
  The two result arrays of the kernel call after the whole grid.

  Each is [2, 8, 128]: core p's block is slab p. A slab is written back once, after the last step of its sweep, when its
  entry (0, 0) holds the sweep's sum and every other entry is zero. The two slabs cover the array, so entry (p, 0, 0)
  of the first array is the sum of the loss terms of points 16·p … 16·p + 15, entry (p, 0, 0) of the second the sum of
  their pair counts, and all other entries are zero.
-/
import proofs.«157388_j9783935500651_2_alg».proof.Proof.Accum
import Idealize.ShloMosaic.Lib.Pipeline.Value

noncomputable section

open Idealize.ShloMosaic Idealize.ShloMosaic.TcCoe Idealize.SL.Sem
open Idealize.ShloMosaic.ValueIdx
open scoped BigOperators

open Idealize.ShloMosaic.Pipeline (Dat)

namespace Cert.KernelIdeal.Final

open Cert.KernelIdeal Cert.KernelIdeal.Gen Cert.KernelIdeal.Pieces Cert.KernelIdeal.Accum

variable (m : (ℓ : Loc nD τ sig) → Buf (Elt Ideal) ℓ)

/-- An array [2, 8, 128] whose entry (p, 0, 0) is the sum of f over sweep p and whose other entries are zero. -/
def sweepArr (f : ℕ → EReal) : S2x8x128.Idx → EReal :=
  fun i => if (i 1).val = 0 ∧ (i 2).val = 0 then ∑ k ∈ Finset.range 16, f (16 * (i 0).val + k) else 0

/-- The first result array. -/
abbrev lossArr (c : Dev nD) : Buf (Elt Ideal) ((c : Thread nD τ).loc main_v0_0) := sweepArr (lossAt m c)
/-- The second result array. -/
abbrev countArr (c : Dev nD) : Buf (Elt Ideal) ((c : Thread nD τ).loc main_v0_1) := sweepArr (countAt m c)

/-- The output windows' index maps, decided over the grid: point t writes slab t / 16. -/
theorem idx_out : ∀ t : Fin cfg0.N, win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-- What a write-back of the first output writes is its slab of the first result array. -/
theorem flushed3_eq (c : Dev nD) (t : Fin cfg0.N) (hf : (cfg0.win 3).flush t = true) :
    (dats m 0 c).flushed 3 t = ((cfg0.win 3).blk t).view.read (Elt Ideal) (lossArr m c) := by
  have hN : t.val < 32 := lt_of_lt_of_eq t.isLt (show cfg0.N = 32 from N_0)
  have h15 : t.val % 16 = 15 := (flush0_3 t).mp hf
  show (cfg0.win 3).cut (grid0.coords t) ((dats m 0 c).after 3 t) = _
  rw [after0_3, outs_eq m c (t.val / 16) 15 (by omega) t.val t.isLt (by omega)]
  obtain ⟨e0, e1, e2, -, -, -⟩ := idx_out t
  funext j
  have hj0 : (j 0).val < 1 := (j 0).isLt
  have i0 : ((((cfg0.win 3).blk t).view.emb j) 0).val = t.val / 16 := by
    show win0_3.index t (0 : Fin 3) * 1 + 1 * (j 0).val = _; omega
  have i1 : ((((cfg0.win 3).blk t).view.emb j) 1).val = (j 1).val := by
    show win0_3.index t (1 : Fin 3) * 8 + 1 * (j 1).val = _; omega
  have i2 : ((((cfg0.win 3).blk t).view.emb j) 2).val = (j 2).val := by
    show win0_3.index t (2 : Fin 3) * 128 + 1 * (j 2).val = _; omega
  show atOrigin _ j = sweepArr (lossAt m c) (((cfg0.win 3).blk t).view.emb j)
  simp only [atOrigin, sweepArr, i0, i1, i2]

/-- What a write-back of the second output writes is its slab of the second result array. -/
theorem flushed4_eq (c : Dev nD) (t : Fin cfg0.N) (hf : (cfg0.win 4).flush t = true) :
    (dats m 0 c).flushed 4 t = ((cfg0.win 4).blk t).view.read (Elt Ideal) (countArr m c) := by
  have hN : t.val < 32 := lt_of_lt_of_eq t.isLt (show cfg0.N = 32 from N_0)
  have h15 : t.val % 16 = 15 := (flush0_4 t).mp hf
  show (cfg0.win 4).cut (grid0.coords t) ((dats m 0 c).after 4 t) = _
  rw [after0_4, outs_eq m c (t.val / 16) 15 (by omega) t.val t.isLt (by omega)]
  obtain ⟨-, -, -, e0, e1, e2⟩ := idx_out t
  funext j
  have hj0 : (j 0).val < 1 := (j 0).isLt
  have i0 : ((((cfg0.win 4).blk t).view.emb j) 0).val = t.val / 16 := by
    show win0_4.index t (0 : Fin 3) * 1 + 1 * (j 0).val = _; omega
  have i1 : ((((cfg0.win 4).blk t).view.emb j) 1).val = (j 1).val := by
    show win0_4.index t (1 : Fin 3) * 8 + 1 * (j 1).val = _; omega
  have i2 : ((((cfg0.win 4).blk t).view.emb j) 2).val = (j 2).val := by
    show win0_4.index t (2 : Fin 3) * 128 + 1 * (j 2).val = _; omega
  show atOrigin _ j = sweepArr (countAt m c) (((cfg0.win 4).blk t).view.emb j)
  simp only [atOrigin, sweepArr, i0, i1, i2]

/-- The last point of sweep p. -/
def lastOf (p : Fin 2) : Fin cfg0.N := ⟨16 * p.val + 15, by rw [show cfg0.N = 32 from N_0]; have := p.isLt; omega⟩

/-- Every entry of a result array lies in the slab its sweep's last point writes back (first output). -/
theorem cover3 (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  refine ⟨lastOf ⟨(i 0).val, h0⟩, (flush0_3 _).mpr (by show (16 * (i 0).val + 15) % 16 = 15; omega), ?_⟩
  obtain ⟨e0, e1, e2, -, -, -⟩ := idx_out (lastOf ⟨(i 0).val, h0⟩)
  have e0' : win0_3.index (lastOf ⟨(i 0).val, h0⟩) (0 : Fin 3) = (i 0).val := by rw [e0]; show (16 * (i 0).val + 15) / 16 = _; omega
  show i ∈ ((View.whole main_v0_0).slice (win0_3.rect (lastOf ⟨(i 0).val, h0⟩))).set
  rw [View.set_slice_whole, Rect.mem_set_unit]
  intro a
  match a with
  | ⟨0, _⟩ => show win0_3.index (lastOf ⟨(i 0).val, h0⟩) (0 : Fin 3) * 1 ≤ (i 0).val ∧ (i 0).val < win0_3.index (lastOf ⟨(i 0).val, h0⟩) (0 : Fin 3) * 1 + 1; omega
  | ⟨1, _⟩ => show win0_3.index (lastOf ⟨(i 0).val, h0⟩) (1 : Fin 3) * 8 ≤ (i 1).val ∧ (i 1).val < win0_3.index (lastOf ⟨(i 0).val, h0⟩) (1 : Fin 3) * 8 + 8; omega
  | ⟨2, _⟩ => show win0_3.index (lastOf ⟨(i 0).val, h0⟩) (2 : Fin 3) * 128 ≤ (i 2).val ∧ (i 2).val < win0_3.index (lastOf ⟨(i 0).val, h0⟩) (2 : Fin 3) * 128 + 128; omega

/-- The same for the second output. -/
theorem cover4 (i : S2x8x128.Idx) : ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 128 := (i 2).isLt
  refine ⟨lastOf ⟨(i 0).val, h0⟩, (flush0_4 _).mpr (by show (16 * (i 0).val + 15) % 16 = 15; omega), ?_⟩
  obtain ⟨-, -, -, e0, e1, e2⟩ := idx_out (lastOf ⟨(i 0).val, h0⟩)
  have e0' : win0_4.index (lastOf ⟨(i 0).val, h0⟩) (0 : Fin 3) = (i 0).val := by rw [e0]; show (16 * (i 0).val + 15) / 16 = _; omega
  show i ∈ ((View.whole main_v0_1).slice (win0_4.rect (lastOf ⟨(i 0).val, h0⟩))).set
  rw [View.set_slice_whole, Rect.mem_set_unit]
  intro a
  match a with
  | ⟨0, _⟩ => show win0_4.index (lastOf ⟨(i 0).val, h0⟩) (0 : Fin 3) * 1 ≤ (i 0).val ∧ (i 0).val < win0_4.index (lastOf ⟨(i 0).val, h0⟩) (0 : Fin 3) * 1 + 1; omega
  | ⟨1, _⟩ => show win0_4.index (lastOf ⟨(i 0).val, h0⟩) (1 : Fin 3) * 8 ≤ (i 1).val ∧ (i 1).val < win0_4.index (lastOf ⟨(i 0).val, h0⟩) (1 : Fin 3) * 8 + 8; omega
  | ⟨2, _⟩ => show win0_4.index (lastOf ⟨(i 0).val, h0⟩) (2 : Fin 3) * 128 ≤ (i 2).val ∧ (i 2).val < win0_4.index (lastOf ⟨(i 0).val, h0⟩) (2 : Fin 3) * 128 + 128; omega

/-- THE RESULT ARRAYS after the grid. -/
theorem final3 (c : Dev nD) : (dats m 0 c).arrAt 3 cfg0.N = lossArr m c :=
  (dats m 0 c).arrAt_eq_of_cover 3 (lossArr m c) (flushed3_eq m c) (cover3)
theorem final4 (c : Dev nD) : (dats m 0 c).arrAt 4 cfg0.N = countArr m c :=
  (dats m 0 c).arrAt_eq_of_cover 4 (countArr m c) (flushed4_eq m c) (cover4)

end Cert.KernelIdeal.Final

end
-- ==== Proof.PairSpec.lean ====
/-
  The pairwise ranking loss as plain sums over the extended reals.

  For a batch of rows, each a list of 128 scores with two integer marks per entry, an entry is a TOP entry when its
  first mark is 1, and a REST entry when its first mark is 0 and its second mark is 1. The hinge of an ordered pair
  (i, j) of entries of one row is max (1 - (s i - s j), 0). The loss sums the hinge over all pairs (top i, rest j) of
  all rows; the count is the number of such pairs. Both are written here with the marks as 0/1 factors, once with the
  two factors multiplied first (the pair's weight) and once with the sum over j taken before the factor of i is applied;
  a 0/1 factor distributes over any sum of extended reals, so the two agree with no finiteness assumed.
-/
import Idealize.ShloMosaic.PureOps
import Idealize.ShloMosaic.PureOps.Ideal
import Idealize.ShloMosaic.Lib.ValueIdx

noncomputable section

open scoped BigOperators

namespace Cert.PairSpec

open Idealize.ShloMosaic Idealize.ShloMosaic.ValueIdx

/-- The words of 1.0 and 0.0 as extended reals. -/
def oneW : EReal := Ideal.ofBits .f32 0x3F800000#32
def zeroW : EReal := Ideal.ofBits .f32 0x00000000#32

/-- A one-bit word as the extended real 0 or 1. -/
def bit (b : BitVec 1) : EReal := ((b.toNat : ℝ) : EReal)

theorem bit_zero_or_one (b : BitVec 1) : bit b = 0 ∨ bit b = 1 := by
  rcases BitVec.eq_zero_or_eq_one b with h | h <;> subst h
  · left; simp [bit]
  · right; simp [bit]

/-- Entry (r, i) is a top entry: its first mark is 1. -/
def top {R : ℕ} (X1 : (⟨2, ![R, 128]⟩ : Shape).Idx → BitVec 32) (r : Fin R) (i : Fin 128) : EReal :=
  bit (IntOp.cmpi .eq (X1 (ix2 r i)) 1#32)

/-- Entry (r, j) is a rest entry: its first mark is 0 and its second mark is 1. -/
def rest {R : ℕ} (X1 X2 : (⟨2, ![R, 128]⟩ : Shape).Idx → BitVec 32) (r : Fin R) (j : Fin 128) : EReal :=
  bit (IntOp.andi (IntOp.cmpi .eq (X1 (ix2 r j)) 0#32) (IntOp.cmpi .eq (X2 (ix2 r j)) 1#32))

/-- The hinge of the ordered pair (i, j) of row r. -/
def hinge {R : ℕ} (X0 : (⟨2, ![R, 128]⟩ : Shape).Idx → EReal) (r : Fin R) (i j : Fin 128) : EReal :=
  max (oneW - (X0 (ix2 r i) - X0 (ix2 r j))) zeroW

/-- One row's loss, the pair's weight formed first. -/
def rowLoss {R : ℕ} (X0 : (⟨2, ![R, 128]⟩ : Shape).Idx → EReal) (X1 X2 : (⟨2, ![R, 128]⟩ : Shape).Idx → BitVec 32) (r : Fin R) : EReal :=
  ∑ i : Fin 128, ∑ j : Fin 128, hinge X0 r i j * (top X1 r i * rest X1 X2 r j)

/-- One row's loss, summed over j before the factor of i is applied. -/
def rowLossFactored {R : ℕ} (X0 : (⟨2, ![R, 128]⟩ : Shape).Idx → EReal) (X1 X2 : (⟨2, ![R, 128]⟩ : Shape).Idx → BitVec 32) (r : Fin R) : EReal :=
  ∑ i : Fin 128, (∑ j : Fin 128, hinge X0 r i j * rest X1 X2 r j) * top X1 r i

/-- One row's pair count, pair by pair. -/
def rowCount {R : ℕ} (X1 X2 : (⟨2, ![R, 128]⟩ : Shape).Idx → BitVec 32) (r : Fin R) : EReal :=
  ∑ i : Fin 128, ∑ j : Fin 128, top X1 r i * rest X1 X2 r j

/-- One row's pair count as the product of the two entry counts. -/
def rowCountFactored {R : ℕ} (X1 X2 : (⟨2, ![R, 128]⟩ : Shape).Idx → BitVec 32) (r : Fin R) : EReal :=
  (∑ i : Fin 128, top X1 r i) * (∑ j : Fin 128, rest X1 X2 r j)

/-- The last step of both programs, on the scalar loss and the scalar count: the loss divided by max (count, 1) where the
    count is positive, the loss itself where it is not. -/
def finish (loss count : FVec Ideal (⟨0, ![]⟩ : Shape) .f32) : FVec Ideal (⟨0, ![]⟩ : Shape) .f32 :=
  select (cmpf .ogt count (constant (F := Ideal) (⟨0, ![]⟩ : Shape) .f32 0x00000000#32))
    (Host.divf loss (maximumf count (constant (F := Ideal) (⟨0, ![]⟩ : Shape) .f32 0x3F800000#32))) loss

end Cert.PairSpec

end
-- ==== Proof.LibLossSums.lean ====
/-
  Sums of a block of extended reals, read off the vector operations that form them.

  A rank-3 block `x : [A, B, C]` is summed by three one-axis reductions with two recasts in between
  (`[A, B, C] → [A, B] → [A] → [A, 1] → [1] → [1, 1]`); `rsum3` says the one entry of the result is the triple sum
  `∑ a, ∑ b, ∑ c, x (a, b, c)`. The steps are stated one by one first (`red_last`, `red_mid`, `cast_col`, `red_first`,
  `cast_one`), each at any extents. Then a sum over the whole index set of a rank-3 or rank-5 shape is written as the
  iterated sum over the coordinates (`sum_idx3`, `sum_idx5`).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibLossSums

open Idealize.ShloMosaic Idealize.ShloMosaic.ValueIdx

/-! ## One block's sum, step by step -/

/-- The index of a rank-3 block over the rank-2 index `(a, b)` with last coordinate `c` inserted is `(a, b, c)`. -/
theorem lift_last {A B C : Nat} (h : Shape.Reduces ⟨3, ![A, B, C]⟩ [2] ⟨2, ![A, B]⟩) (a : Fin A) (b : Fin B) (c : Fin C) :
    h.lift (ix2 a b) c = ix3 a b c := by
  funext d; refine Fin.ext ?_
  match d with
  | ⟨0, _⟩ => rfl
  | ⟨1, _⟩ => rfl
  | ⟨2, _⟩ => rfl

/-- Summing a rank-3 block over its last axis: at `(a, b)` the result is `∑ c, x (a, b, c)`. -/
theorem red_last {A B C : Nat} (x : FVec Ideal ⟨3, ![A, B, C]⟩ .f32)
    (h : Shape.Reduces ⟨3, ![A, B, C]⟩ [2] ⟨2, ![A, B]⟩) (hφ : FKind.Formats .f32)
    (hacc : (0x00000000#32 : BitVec 32) = 0x00000000#32) (a : Fin A) (b : Fin B) :
    multiReduction (F := Ideal) .add [2] ⟨2, ![A, B]⟩ x 0x00000000#32 h hφ hacc (ix2 a b)
      = ∑ c : Fin C, x (ix3 a b c) := by
  refine (Ideal.multiReduction_add_single x 0x00000000#32 h hφ hacc (ix2 a b)).trans ?_
  exact Finset.sum_congr rfl fun c _ => congrArg x (lift_last h a b c)

/-- The index of a rank-2 block over the rank-1 index `a` with last coordinate `b` inserted is `(a, b)`. -/
theorem lift_mid {A B : Nat} (h : Shape.Reduces ⟨2, ![A, B]⟩ [1] ⟨1, ![A]⟩) (a : Fin A) (b : Fin B) :
    h.lift (ix1 a) b = ix2 a b := by
  funext d; refine Fin.ext ?_
  match d with
  | ⟨0, _⟩ => rfl
  | ⟨1, _⟩ => rfl

/-- Summing a rank-2 block over its last axis: at `a` the result is `∑ b, y (a, b)`. -/
theorem red_mid {A B : Nat} (y : FVec Ideal ⟨2, ![A, B]⟩ .f32)
    (h : Shape.Reduces ⟨2, ![A, B]⟩ [1] ⟨1, ![A]⟩) (hφ : FKind.Formats .f32)
    (hacc : (0x00000000#32 : BitVec 32) = 0x00000000#32) (a : Fin A) :
    multiReduction (F := Ideal) .add [1] ⟨1, ![A]⟩ y 0x00000000#32 h hφ hacc (ix1 a)
      = ∑ b : Fin B, y (ix2 a b) := by
  refine (Ideal.multiReduction_add_single y 0x00000000#32 h hφ hacc (ix1 a)).trans ?_
  exact Finset.sum_congr rfl fun b _ => congrArg y (lift_mid h a b)

/-- The index of an `[A, 1]` block over the one index of `[1]` with first coordinate `a` inserted is `(a, 0)`. -/
theorem lift_first {A : Nat} (h : Shape.Reduces ⟨2, ![A, 1]⟩ [0] ⟨1, ![1]⟩) (j : (⟨1, ![1]⟩ : Shape).Idx) (a : Fin A) :
    h.lift j a = ix2 a (0 : Fin 1) := by
  funext d; refine Fin.ext ?_
  match d with
  | ⟨0, _⟩ => rfl
  | ⟨1, hd⟩ =>
    have hlt : (h.lift j a ⟨1, hd⟩).val < 1 := (h.lift j a ⟨1, hd⟩).isLt
    show (h.lift j a ⟨1, hd⟩).val = 0
    omega

/-- Summing an `[A, 1]` column over its first axis: the one entry of the result is `∑ a, z (a, 0)`. -/
theorem red_first {A : Nat} (z : FVec Ideal ⟨2, ![A, 1]⟩ .f32)
    (h : Shape.Reduces ⟨2, ![A, 1]⟩ [0] ⟨1, ![1]⟩) (hφ : FKind.Formats .f32)
    (hacc : (0x00000000#32 : BitVec 32) = 0x00000000#32) (j : (⟨1, ![1]⟩ : Shape).Idx) :
    multiReduction (F := Ideal) .add [0] ⟨1, ![1]⟩ z 0x00000000#32 h hφ hacc j
      = ∑ a : Fin A, z (ix2 a (0 : Fin 1)) := by
  refine (Ideal.multiReduction_add_single z 0x00000000#32 h hφ hacc j).trans ?_
  exact Finset.sum_congr rfl fun a _ => congrArg z (lift_first h j a)

/-- A vector `[A]` recast as a column `[A, 1]` reads, at `(a, 0)`, the vector at `a`. -/
theorem cast_col {α : Type} {A : Nat} (w : (⟨1, ![A]⟩ : Shape).Idx → α) (h : Shape.ShapeCasts ⟨1, ![A]⟩ ⟨2, ![A, 1]⟩) (a : Fin A) :
    shapeCast ⟨2, ![A, 1]⟩ w h (ix2 a (0 : Fin 1)) = w (ix1 a) := by
  refine shapeCast_apply w h _ (ix1 a) ?_
  rw [Shape.rowMajor_val_one, Shape.rowMajor_val_two]
  show a.val = a.val * 1 + 0
  omega

/-- A one-entry vector `[1]` recast as `[1, 1]` reads, at any index, the entry at any index. -/
theorem cast_one {α : Type} (w : (⟨1, ![1]⟩ : Shape).Idx → α) (h : Shape.ShapeCasts ⟨1, ![1]⟩ ⟨2, ![1, 1]⟩)
    (i : (⟨2, ![1, 1]⟩ : Shape).Idx) (j : (⟨1, ![1]⟩ : Shape).Idx) :
    shapeCast ⟨2, ![1, 1]⟩ w h i = w j := by
  refine shapeCast_apply w h i j ?_
  have h1 : ((⟨1, ![1]⟩ : Shape).rowMajor j).val < 1 := ((⟨1, ![1]⟩ : Shape).rowMajor j).isLt
  have h2 : ((⟨2, ![1, 1]⟩ : Shape).rowMajor i).val < 1 := ((⟨2, ![1, 1]⟩ : Shape).rowMajor i).isLt
  omega

/-- THE BLOCK SUM. A rank-3 block `x : [A, B, C]` summed over its last axis, then over the last axis of the `[A, B]`
    result, the `[A]` result recast as a column `[A, 1]`, summed over its first axis and the `[1]` result recast as
    `[1, 1]`: the one entry of the result is the triple sum `∑ a, ∑ b, ∑ c, x (a, b, c)`. No accumulator term is left:
    each reduction starts from the neutral word of addition. -/
theorem rsum3 {A B C : Nat} (x : FVec Ideal ⟨3, ![A, B, C]⟩ .f32)
    (h1 : Shape.Reduces ⟨3, ![A, B, C]⟩ [2] ⟨2, ![A, B]⟩) (h2 : Shape.Reduces ⟨2, ![A, B]⟩ [1] ⟨1, ![A]⟩)
    (c1 : Shape.ShapeCasts ⟨1, ![A]⟩ ⟨2, ![A, 1]⟩) (h3 : Shape.Reduces ⟨2, ![A, 1]⟩ [0] ⟨1, ![1]⟩)
    (c2 : Shape.ShapeCasts ⟨1, ![1]⟩ ⟨2, ![1, 1]⟩)
    (f1 f2 f3 : FKind.Formats .f32) (e1 e2 e3 : (0x00000000#32 : BitVec 32) = 0x00000000#32)
    (i : (⟨2, ![1, 1]⟩ : Shape).Idx) :
    shapeCast ⟨2, ![1, 1]⟩
      (multiReduction (F := Ideal) .add [0] ⟨1, ![1]⟩
        (shapeCast ⟨2, ![A, 1]⟩
          (multiReduction (F := Ideal) .add [1] ⟨1, ![A]⟩
            (multiReduction (F := Ideal) .add [2] ⟨2, ![A, B]⟩ x 0x00000000#32 h1 f1 e1)
            0x00000000#32 h2 f2 e2) c1)
        0x00000000#32 h3 f3 e3) c2 i
      = ∑ a : Fin A, ∑ b : Fin B, ∑ c : Fin C, x (ix3 a b c) := by
  rw [cast_one _ c2 i (ix1 0), red_first]
  refine Finset.sum_congr rfl fun a _ => ?_
  rw [cast_col, red_mid]
  exact Finset.sum_congr rfl fun b _ => red_last x h1 f1 e1 a b

/-- The block sum `rsum3` with each accumulator's proof typed as the reduction's own argument is (the word is the
    neutral word of addition at `f32`): the same triple sum. -/
theorem rsum3_neutral {A B C : Nat} (x : FVec Ideal ⟨3, ![A, B, C]⟩ .f32)
    (h1 : Shape.Reduces ⟨3, ![A, B, C]⟩ [2] ⟨2, ![A, B]⟩) (h2 : Shape.Reduces ⟨2, ![A, B]⟩ [1] ⟨1, ![A]⟩)
    (c1 : Shape.ShapeCasts ⟨1, ![A]⟩ ⟨2, ![A, 1]⟩) (h3 : Shape.Reduces ⟨2, ![A, 1]⟩ [0] ⟨1, ![1]⟩)
    (c2 : Shape.ShapeCasts ⟨1, ![1]⟩ ⟨2, ![1, 1]⟩)
    (f1 f2 f3 : FKind.Formats .f32) (e1 : (0x00000000#32 : BitVec 32) = FKind.add.neutral .f32 f1)
    (e2 : (0x00000000#32 : BitVec 32) = FKind.add.neutral .f32 f2) (e3 : (0x00000000#32 : BitVec 32) = FKind.add.neutral .f32 f3)
    (i : (⟨2, ![1, 1]⟩ : Shape).Idx) :
    shapeCast ⟨2, ![1, 1]⟩
      (multiReduction (F := Ideal) .add [0] ⟨1, ![1]⟩
        (shapeCast ⟨2, ![A, 1]⟩
          (multiReduction (F := Ideal) .add [1] ⟨1, ![A]⟩
            (multiReduction (F := Ideal) .add [2] ⟨2, ![A, B]⟩ x 0x00000000#32 h1 f1 e1)
            0x00000000#32 h2 f2 e2) c1)
        0x00000000#32 h3 f3 e3) c2 i
      = ∑ a : Fin A, ∑ b : Fin B, ∑ c : Fin C, x (ix3 a b c) :=
  rsum3 x h1 h2 c1 h3 c2 f1 f2 f3 rfl rfl rfl i

/-! ## Sums over index sets of rank 3 and 5 as iterated sums over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Cert.LibLossSums

end
-- ==== Proof.HostTail.lean ====
/-
  The kernel program's last ten host operations, at the ideal values.

  After the region the program sums each of the region's two [2, 8, 128] output arrays over all three axes from the
  word of zero, and applies the final step to the two sums: the first sum over max (second sum, 1) where the second
  sum is positive, the first sum itself where it is not. A host sum into a scalar is the initial value plus the sum
  over every index, which for a rank-3 shape is the triple sum over the coordinates. So whatever the two arrays are at
  the region's exit, the result buffer ends at the final step of their two triple sums.
-/
import proofs.«157388_j9783935500651_2_alg».proof.Proof.Gen.KernelIdeal.Frame
import proofs.«157388_j9783935500651_2_alg».proof.Proof.PairSpec
import proofs.«157388_j9783935500651_2_alg».proof.Proof.LibLossSums
import Idealize.ShloMosaic.Lib.StableHlo.Run
import Idealize.ShloMosaic.Lib.IdealHost
import Idealize.ShloMosaic.Lib.Pipeline.FrameSuffix
import Idealize.ShloMosaic.PureOps.Ideal.Laws
import Idealize.ShloMosaic.Lib.ValueIdx

noncomputable section

open scoped BigOperators

namespace Cert.KernelIdeal.HostTail

open Cert.KernelIdeal Cert.KernelIdeal.Gen Idealize.ShloMosaic Idealize.ShloMosaic.TcCoe Idealize.SL.Sem Idealize.ShloMosaic.StableHlo Idealize.ShloMosaic.ValueIdx

/-- A host sum of a [2, 8, 128] array over all three axes, from the word of zero, is the triple sum over the coordinates. -/
theorem reduce_total (y : FVec Ideal S2x8x128 .f32) (k : S_.Idx) :
    Host.reduceAdd y (constant (F := Ideal) S_ .f32 0x00000000#32) reducesTo_S2x8x128_S_d0_1_2 h_S_ k
      = ∑ a : Fin 2, ∑ b : Fin 8, ∑ d : Fin 128, y (ix3 a b d) := by
  rw [hostReduceAdd_apply, Ideal.hostReduceAdd_total reducesTo_S2x8x128_S_d0_1_2 (fun b => b.elim0) y _ k,
    constant_apply, Ideal.ofBits_zero_f32, zero_add]
  exact LibLossSums.sum_idx3 y

/-- The same as an equation of scalar arrays. -/
theorem reduce_eq (y : FVec Ideal S2x8x128 .f32) :
    Host.reduceAdd y (constant (F := Ideal) S_ .f32 0x00000000#32) reducesTo_S2x8x128_S_d0_1_2 h_S_
      = fun _ => ∑ a : Fin 2, ∑ b : Fin 8, ∑ d : Fin 128, y (ix3 a b d) :=
  funext fun k => reduce_total y k

/-- The result buffer after the lines that follow the region, given the two output arrays at the region's exit: the
    lines' operations read the two arrays where the region left them and every other buffer they read is one they
    wrote themselves, so their composed value is the final step of the two host sums. -/
theorem tail_of (m : (ℓ : Loc nD τ sig) → Buf (Elt Ideal) ℓ) (c : Dev nD) (A3 A4 : S2x8x128.Idx → EReal)
    (h3 : (Gen.dats m 0 c).arrAt 3 cfg0.N = A3) (h4 : (Gen.dats m 0 c).arrAt 4 cfg0.N = A4) :
    Pipeline.afterTail₀ cfgs (Gen.dats m) 0 (Gen.V0 m) [Gen.hostOps1, Gen.hostOps1_1] c main_v6
      = Cert.PairSpec.finish (fun _ => ∑ a : Fin 2, ∑ b : Fin 8, ∑ d : Fin 128, A3 (ix3 a b d))
          (fun _ => ∑ a : Fin 2, ∑ b : Fin 8, ∑ d : Fin 128, A4 (ix3 a b d)) := by
  unfold Pipeline.afterTail₀
  show StableHlo.after _ _ (Proc.devRef .tc main_v6) = _
  simp only [Gen.hostOps1, Gen.hostOps1_1, List.flatten_cons, List.flatten_nil, List.append_nil, List.cons_append, List.nil_append]
  after_results_simp
  have e3 : Pipeline.withArrays (cfgs 0).spec c (V0 m c) (fun w => (dats m 0 c).arrAt w (cfgs 0).N) (Proc.devRef .tc main_v0_0) = A3 :=
    (Pipeline.withArrays_arr spec0 launch0.win.arr_inj c _ _ 3).trans h3
  have e4 : Pipeline.withArrays (cfgs 0).spec c (V0 m c) (fun w => (dats m 0 c).arrAt w (cfgs 0).N) (Proc.devRef .tc main_v0_1) = A4 :=
    (Pipeline.withArrays_arr spec0 launch0.win.arr_inj c _ _ 4).trans h4
  rw [e3, e4]
  show PairSpec.finish (Host.reduceAdd A3 (constant (F := Ideal) S_ .f32 0x00000000#32) reducesTo_S2x8x128_S_d0_1_2 h_S_)
    (Host.reduceAdd A4 (constant (F := Ideal) S_ .f32 0x00000000#32) reducesTo_S2x8x128_S_d0_1_2 h_S_) = _
  rw [reduce_eq A3, reduce_eq A4]

end Cert.KernelIdeal.HostTail

end
-- ==== Proof.LibCube.lean ====
/-
  Rank-three blocks built from a matrix and reduced back, read at an index — general in the extents.

  A matrix `[a, b]` viewed with a unit axis in the middle, `[a, 1, b]`; such a block broadcast along the middle axis to
  `[a, c, b]`; the source index a sum along the middle axis of an `[a, b, c]` block inserts, and the one a sum along the
  first axis of a matrix inserts; sums over the index sets of `[1, b]` and `[1, b, c]` blocks as sums over coordinates;
  a sum over `m · n` consecutive positions grouped as `m` runs of `n`; and, at the exact instance, a lane sum of a matrix
  and a sum along the middle axis of a rank-three block as sums over the summed coordinate.
-/
import Idealize.ShloMosaic.Lib.ValueLayout
import Idealize.ShloMosaic.PureOps.Reduce
import Idealize.ShloMosaic.PureOps.Ideal.Laws

open scoped BigOperators

namespace Cert.LibCube

open Idealize.ShloMosaic Idealize.ShloMosaic.ValueIdx

variable {α : Type}

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- The source index a sum along the middle axis of an `[a, b, c]` block inserts over `(r, n)` at coordinate `p`
    is `(r, p, n)`. -/
theorem lift_mid {a b c : ℕ} (h : (⟨3, ![a, b, c]⟩ : Shape).Reduces [1] ⟨2, ![a, c]⟩) (r : Fin a) (n : Fin c) (p : Fin b) :
    h.lift (ix2 r n) p = ix3 r p n := by
  funext ax
  apply Fin.ext
  match ax with
  | ⟨0, _⟩ => rfl
  | ⟨1, _⟩ => rfl
  | ⟨2, _⟩ => rfl

/-- The source index a sum along the first axis of an `[a, b]` matrix inserts over `l` at coordinate `g` is `(g, l)`. -/
theorem lift_first {a b : ℕ} (h : (⟨2, ![a, b]⟩ : Shape).Reduces [0] ⟨1, ![b]⟩) (l : Fin b) (g : Fin a) :
    h.lift (ix1 l) g = ix2 g l := by
  funext ax
  apply Fin.ext
  match ax with
  | ⟨0, _⟩ => rfl
  | ⟨1, _⟩ => rfl

/-- A sum over the index set of a `[1, b]` block is the sum over its second coordinate. -/
theorem sum_idx_1b {M : Type*} [AddCommMonoid M] {b : ℕ} (f : (⟨2, ![1, b]⟩ : Shape).Idx → M) :
    ∑ i, f i = ∑ r : Fin b, f (ix2 (0 : Fin 1) r) := by
  rw [sum_idx2, Fin.sum_univ_one]

/-- Every index of a `[1, b, c]` block is `(0, r, k)`; its index set is the product of the two long ranges. -/
def idxEquiv_1bc {b c : ℕ} : (⟨3, ![1, b, c]⟩ : Shape).Idx ≃ Fin b × Fin c where
  toFun i := (i 1, i 2)
  invFun p := ix3 (0 : Fin 1) p.1 p.2
  left_inv i := by
    funext ax
    match ax with
    | ⟨0, _⟩ => exact Fin.ext (by have h0 : (i 0).val < 1 := (i 0).isLt; show 0 = (i 0).val; omega)
    | ⟨1, _⟩ => rfl
    | ⟨2, _⟩ => rfl
  right_inv _ := rfl

/-- So a sum over it is the double sum over the two long coordinates. -/
theorem sum_idx_1bc {M : Type*} [AddCommMonoid M] {b c : ℕ} (f : (⟨3, ![1, b, c]⟩ : Shape).Idx → M) :
    ∑ i, f i = ∑ r : Fin b, ∑ k : Fin c, f (ix3 (0 : Fin 1) r k) := by
  rw [← Equiv.sum_comp (idxEquiv_1bc (b := b) (c := c)).symm f, Fintype.sum_prod_type]
  rfl

/-- A sum over `m · n` positions is the sum over `m` runs of the sums over each run's `n` positions. -/
theorem sum_runs {M : Type*} [AddCommMonoid M] {m n : ℕ} (f : Fin (m * n) → M) :
    ∑ g : Fin m, ∑ r : Fin n, f (finProdFinEquiv (g, r)) = ∑ R, f R := by
  rw [← Fintype.sum_prod_type (f := fun p : Fin m × Fin n => f (finProdFinEquiv p))]
  exact Equiv.sum_comp finProdFinEquiv f

/-- A lane sum of an `[a, b]` matrix (its accumulator the neutral zero) reads, at row `r`, the sum over `k < b` of the
    entries `(r, k)`. -/
theorem laneSum_ix1 {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show (∑ k : Fin b, src (h.lift (ix1 r) k)) = _
  refine Finset.sum_congr rfl fun k _ => congrArg src ?_
  funext ax
  apply Fin.ext
  match ax with
  | ⟨0, _⟩ => rfl
  | ⟨1, _⟩ => rfl

/-- A sum along the middle axis of an `[a, b, c]` block reads, at `(r, n)`, the sum over `p < b` of the entries
    `(r, p, n)`. -/
theorem midSum_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (r : Fin a) (n : Fin c) :
    multiReduction .add [1] ⟨2, ![a, c]⟩ src acc h hφ hacc (ix2 r n) = ∑ p : Fin b, src (ix3 r p n) := by
  refine (Ideal.multiReduction_add_single src acc h hφ hacc (ix2 r n)).trans ?_
  show (∑ p : Fin b, src (h.lift (ix2 r n) p)) = _
  exact Finset.sum_congr rfl fun p _ => congrArg src (lift_mid h r n p)

end Cert.LibCube
-- ==== Proof.LibBlocks.lean ====
/-
  Blocks of rank two and three read at an index: the unit axes a vector kernel adds and drops around its stores,
  the two broadcasts that fill a rank-three block from a matrix of rows or from a matrix with a trailing unit axis, the
  host's placement of a rank-three array into a rank-four one with a unit axis in second place, a load of one column
  of a matrix, and where an index of a rank-three block lies relative to a slab cut along the last axis. Each is the
  general "same row-major position" or "trailing coordinates" reading of the operation, with both indices written out
  by coordinates; the extents are free.
-/
import Idealize.ShloMosaic.Lib.ValueLayout

namespace Cert.LibBlocks

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array cast to `[a, b]` reads, at `(p, q)`, the operand at `(p, 0, q)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- A `[1, b, c]` array broadcast to `[a, b, c]` reads, at `(p, q, k)`, the operand's one matrix at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, b, c]` array placed on axes 0, 2, 3 of an `[a, 1, b, c]` array reads, at `(p, u, q, k)`, the operand at
    `(p, q, k)`. -/
theorem broadcastInDim_abc_a1bc_apply {a b c : ℕ} (x : (⟨3, ![a, b, c]⟩ : Shape).Idx → α)
    (h : (⟨3, ![a, b, c]⟩ : Shape).BroadcastsInDim ⟨4, ![a, 1, b, c]⟩ ![0, 2, 3])
    (p : Fin a) (u : Fin 1) (q : Fin b) (k : Fin c) :
    broadcastInDim ⟨4, ![a, 1, b, c]⟩ ![0, 2, 3] h x (ix4 p u q k) = x (ix3 p q k) := by
  refine broadcastInDim_apply ![0, 2, 3] h x (ix4 p u q k) (ix3 p q k) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show k.val = if c = 1 then 0 else k.val
    split
    · have := k.isLt; omega
    · rfl

section Loads

variable {Val : EltTy → Type} {e : EltTy}

/-- A load of column `j` of an `[a, b]` block, as an `[a, 1]` column, reads at `(p, u)` the block at `(p, j)`. -/
theorem ld_col_apply {a b : ℕ} (X : (⟨2, ![a, b]⟩ : Shape).Idx → Val e) (j : ℕ) (hj : j < b)
    (inb : ∀ ax, (![0, j] : Fin 2 → ℕ) ax + (![a, 1] : Fin 2 → ℕ) ax ≤ (⟨2, ![a, b]⟩ : Shape).size ax)
    (p : Fin a) (u : Fin 1) :
    View.ld X (Rect.unit ![0, j] ![a, 1] inb) (ix2 p u) = X (ix2 p ⟨j, hj⟩) := by
  show X _ = X _
  congr 1
  funext ax
  apply Fin.ext
  match ax with
  | ⟨0, _⟩ => show 0 + 1 * p.val = p.val; omega
  | ⟨1, _⟩ => show j + 1 * u.val = j; omega

end Loads

/-- The slab of an `[a, b, c]` block that keeps the first two axes whole and takes `n` consecutive coordinates from
    `o` on the last: its own index `(p, q, k')` sits at `(p, q, o + k')` of the block. -/
theorem slab_emb {a b c n o : ℕ}
    (inb : ∀ ax, (![0, 0, o] : Fin 3 → ℕ) ax + (![a, b, n] : Fin 3 → ℕ) ax ≤ (⟨3, ![a, b, c]⟩ : Shape).size ax)
    (p : Fin a) (q : Fin b) (k' : Fin n) (hk : o + k'.val < c) :
    (Rect.unit (s := ⟨3, ![a, b, c]⟩) ![0, 0, o] ![a, b, n] inb).emb (ix3 p q k') = ix3 p q ⟨o + k'.val, hk⟩ := by
  funext ax
  apply Fin.ext
  match ax with
  | ⟨0, _⟩ => show 0 + 1 * p.val = p.val; omega
  | ⟨1, _⟩ => show 0 + 1 * q.val = q.val; omega
  | ⟨2, _⟩ => show o + 1 * k'.val = o + k'.val; omega

/-- An index whose last coordinate is before the slab's first or at or past its end is not in the slab. -/
theorem not_mem_slab {a b c n o : ℕ}
    (inb : ∀ ax, (![0, 0, o] : Fin 3 → ℕ) ax + (![a, b, n] : Fin 3 → ℕ) ax ≤ (⟨3, ![a, b, c]⟩ : Shape).size ax)
    (p : Fin a) (q : Fin b) (k : Fin c) (hk : k.val < o ∨ o + n ≤ k.val) :
    ix3 p q k ∉ (Rect.unit (s := ⟨3, ![a, b, c]⟩) ![0, 0, o] ![a, b, n] inb).set := by
  rw [Rect.mem_set_unit]
  intro hm
  have h2 := hm (⟨2, (by show 2 < 3; omega)⟩ : Fin (⟨3, ![a, b, c]⟩ : Shape).rank)
  change o ≤ k.val ∧ k.val < o + n at h2
  omega

end Cert.LibBlocks
-- ==== Proof.BlockPay.lean ====
/-
  The arithmetic of one block of 128 rows, at the exact instance.

  From the block's scores and its two integer marks the body forms: the two 0/1 factor blocks (an entry is a top entry;
  an entry is a rest entry); the rank-three block of hinges max (1 - (s (b, i) - s (b, j)), 0); the product of that
  block with the rest factors, batched over the rows and contracted over j; its product with the top factors; and the
  sum of that over i and then over the rows. Its one entry is the sum over the block's rows of each row's loss, in the
  form where the sum over j is taken before the factor of i is applied. Likewise the two factor blocks' lane sums,
  multiplied row by row and summed over the rows, give the sum of the rows' pair counts, each as the product of the
  row's two entry counts. Every step is read at an index whose coordinates are written out.
-/
import proofs.«157388_j9783935500651_2_alg».proof.Proof.Gen.KernelIdeal.Skeleton
import proofs.«157388_j9783935500651_2_alg».proof.Proof.PairSpec
import proofs.«157388_j9783935500651_2_alg».proof.Proof.LibCube
import proofs.«157388_j9783935500651_2_alg».proof.Proof.LibBlocks
import proofs.«157388_j9783935500651_2_alg».proof.Proof.LibLossSums

noncomputable section

open scoped BigOperators

namespace Cert.KernelIdeal.BlockPay

open Idealize.ShloMosaic Idealize.ShloMosaic.ValueIdx Cert.PairSpec

/-! ## The two marks as 0/1 factors -/

/-- A one-bit word, zero-extended to 32 bits and read as a signed integer, is the extended real 0 or 1 of the bit. -/
theorem sitofp_bit (c : BitVec 1) : FloatOps.sitofp (F := Ideal) .f32 (c.setWidth 32) = bit c := by
  show (((c.setWidth 32).toInt : ℝ) : EReal) = ((c.toNat : ℝ) : EReal)
  rcases BitVec.eq_zero_or_eq_one c with h | h <;> subst h
  · have e : ((0#1 : BitVec 1).setWidth 32).toInt = 0 := by decide
    rw [e]; simp
  · have e : ((1#1 : BitVec 1).setWidth 32).toInt = 1 := by decide
    rw [e]; simp

/-- The first payload at entry (b, i) is the top factor of that entry. -/
theorem topBlock_apply (x1 : Vec Ideal S128x128 .i32) (b i : Fin 128) :
    Gen.k0_pay5 (F := Ideal) x1 (ix2 b i) = top x1 b i := by
  show FloatOps.sitofp (F := Ideal) .f32 ((IntOp.cmpi .eq (x1 (ix2 b i)) 1#32).setWidth 32) = bit (IntOp.cmpi .eq (x1 (ix2 b i)) 1#32)
  exact sitofp_bit _

/-- The second payload at entry (b, j) is the rest factor of that entry. -/
theorem restBlock_apply (x1 x2 : Vec Ideal S128x128 .i32) (b j : Fin 128) :
    Gen.k0_pay6 (F := Ideal) x1 x2 (ix2 b j) = rest x1 x2 b j := by
  show FloatOps.sitofp (F := Ideal) .f32 ((IntOp.andi (IntOp.cmpi .eq (x1 (ix2 b j)) 0#32) (IntOp.cmpi .eq (x2 (ix2 b j)) 1#32)).setWidth 32)
    = bit (IntOp.andi (IntOp.cmpi .eq (x1 (ix2 b j)) 0#32) (IntOp.cmpi .eq (x2 (ix2 b j)) 1#32))
  exact sitofp_bit _

/-! ## The block of hinges -/

/-- The rank-three block the body forms from the scores: at (b, i, j), max (1 - (s (b, i) - s (b, j)), 0). -/
def hingeCube (x0 : Vec Ideal S128x128 .f32) : FVec Ideal S128x128x128 .f32 :=
  maximumf
    (subf (broadcast S128x128x128 (Scalar.ofBits (F := Ideal) .f32 0x3F800000#32))
      (subf
        (broadcastTo S128x128x128 (shapeCast S128x128x1 x0 Gen.shapeCasts_S128x128_S128x128x1) Gen.broadcasts_S128x128x1_S128x128x128)
        (broadcastTo S128x128x128 (shapeCast S128x1x128 x0 Gen.shapeCasts_S128x128_S128x1x128) Gen.broadcasts_S128x1x128_S128x128x128)))
    (broadcast S128x128x128 (Scalar.ofBits (F := Ideal) .f32 0x00000000#32))

/-- Entry (b, i, j) of the block of hinges is the hinge of the ordered pair (i, j) of row b. -/
theorem hingeCube_apply (x0 : Vec Ideal S128x128 .f32) (b i j : Fin 128) :
    hingeCube x0 (ix3 b i j) = hinge x0 b i j := by
  have e1 : broadcastTo S128x128x128 (shapeCast S128x128x1 x0 Gen.shapeCasts_S128x128_S128x128x1)
      Gen.broadcasts_S128x128x1_S128x128x128 (ix3 b i j) = x0 (ix2 b i) :=
    (LibBlocks.broadcastTo_ab1_abc_apply _ Gen.broadcasts_S128x128x1_S128x128x128 b i j).trans
      (LibBlocks.shapeCast_ab_ab1_apply x0 Gen.shapeCasts_S128x128_S128x128x1 b i (0 : Fin 1))
  have e2 : broadcastTo S128x128x128 (shapeCast S128x1x128 x0 Gen.shapeCasts_S128x128_S128x1x128)
      Gen.broadcasts_S128x1x128_S128x128x128 (ix3 b i j) = x0 (ix2 b j) :=
    (LibCube.broadcastTo_a1c_abc_apply _ Gen.broadcasts_S128x1x128_S128x128x128 b i j).trans
      (LibCube.shapeCast_ab_a1b_apply x0 Gen.shapeCasts_S128x128_S128x1x128 b (0 : Fin 1) j)
  show max (oneW - (broadcastTo S128x128x128 (shapeCast S128x128x1 x0 Gen.shapeCasts_S128x128_S128x128x1)
        Gen.broadcasts_S128x128x1_S128x128x128 (ix3 b i j)
      - broadcastTo S128x128x128 (shapeCast S128x1x128 x0 Gen.shapeCasts_S128x128_S128x1x128)
        Gen.broadcasts_S128x1x128_S128x128x128 (ix3 b i j))) zeroW = _
  rw [e1, e2]
  rfl

/-! ## The batched product -/

/-- The product of a [128, 128, 128] block by a [128, 128, 1] block, batched over the first axis, the left block's last
    axis contracted with the right block's middle axis, into the zero block: at (b, i, u) the sum over j of
    left (b, i, j) · right (b, j, u). -/
theorem batchedProduct_apply (L : FVec Ideal S128x128x128 .f32) (Rt : FVec Ideal S128x128x1 .f32) (b i : Fin 128) (u : Fin 1) :
    FloatOps.matmul dot_S128x128x128_S128x128x1_S128x128x1_2_1_1_2_0_0 none L Rt
        (constant (F := Ideal) S128x128x1 .f32 0x00000000#32) (ix3 b i u)
      = ∑ j : Fin 128, L (ix3 b i j) * Rt (ix3 b j u) := by
  rw [Ideal.matmul_constant_zero_apply,
    ← Equiv.sum_comp (contrEquiv1 dot_S128x128x128_S128x128x1_S128x128x1_2_1_1_2_0_0 128 rfl rfl).symm]
  refine Finset.sum_congr rfl fun k _ => ?_
  have hk := contrEquiv1_symm_val dot_S128x128x128_S128x128x1_S128x128x1_2_1_1_2_0_0 128 rfl rfl k
  have el : dot_S128x128x128_S128x128x1_S128x128x1_2_1_1_2_0_0.lhsIdx (ix3 b i u)
      ((contrEquiv1 dot_S128x128x128_S128x128x1_S128x128x1_2_1_1_2_0_0 128 rfl rfl).symm k) = ix3 b i k :=
    funext fun a => Fin.ext (by
      match a with
      | ⟨0, _⟩ => rfl
      | ⟨1, _⟩ => rfl
      | ⟨2, _⟩ => exact (dot_S128x128x128_S128x128x1_S128x128x1_2_1_1_2_0_0.lhsIdx_val_of_single rfl (ix3 b i u) _).trans hk)
  have er : dot_S128x128x128_S128x128x1_S128x128x1_2_1_1_2_0_0.rhsIdx (ix3 b i u)
      ((contrEquiv1 dot_S128x128x128_S128x128x1_S128x128x1_2_1_1_2_0_0 128 rfl rfl).symm k) = ix3 b k u :=
    funext fun a => Fin.ext (by
      match a with
      | ⟨0, _⟩ => rfl
      | ⟨1, _⟩ => exact (dot_S128x128x128_S128x128x1_S128x128x1_2_1_1_2_0_0.rhsIdx_val_of_single rfl (ix3 b i u) _).trans hk
      | ⟨2, _⟩ => rfl)
  rw [el, er]

/-! ## A column of one-entry rows summed over its first axis -/

/-- The index of an [A, 1, 1] block over an index of [1, 1] with first coordinate a inserted is (a, 0, 0). -/
theorem lift_first_unit {A : Nat} (h : Shape.Reduces ⟨3, ![A, 1, 1]⟩ [0] ⟨2, ![1, 1]⟩) (y : (⟨2, ![1, 1]⟩ : Shape).Idx) (a : Fin A) :
    h.lift y a = ix3 a (0 : Fin 1) (0 : Fin 1) := by
  funext d; refine Fin.ext ?_
  match d with
  | ⟨0, _⟩ => rfl
  | ⟨1, hd⟩ =>
    have hlt : (h.lift y a ⟨1, hd⟩).val < 1 := (h.lift y a ⟨1, hd⟩).isLt
    show (h.lift y a ⟨1, hd⟩).val = 0
    omega
  | ⟨2, hd⟩ =>
    have hlt : (h.lift y a ⟨2, hd⟩).val < 1 := (h.lift y a ⟨2, hd⟩).isLt
    show (h.lift y a ⟨2, hd⟩).val = 0
    omega

/-- Summing an [A, 1, 1] block over its first axis: the one entry of the result is the sum over a of the entries (a, 0, 0). -/
theorem sum_first_unit {A : Nat} (z : FVec Ideal ⟨3, ![A, 1, 1]⟩ .f32)
    (h : Shape.Reduces ⟨3, ![A, 1, 1]⟩ [0] ⟨2, ![1, 1]⟩) (hφ : FKind.Formats .f32)
    (hacc : (0x00000000#32 : BitVec 32) = 0x00000000#32) (y : (⟨2, ![1, 1]⟩ : Shape).Idx) :
    multiReduction (F := Ideal) .add [0] ⟨2, ![1, 1]⟩ z 0x00000000#32 h hφ hacc y
      = ∑ a : Fin A, z (ix3 a (0 : Fin 1) (0 : Fin 1)) := by
  refine (Ideal.multiReduction_add_single z 0x00000000#32 h hφ hacc y).trans ?_
  exact Finset.sum_congr rfl fun a _ => congrArg z (lift_first_unit h y a)

/-! ## The loss of one block -/

/-- The body's loss payload over the block of hinges and the two factor blocks. -/
theorem lossPayload_eq (x0 : Vec Ideal S128x128 .f32) (x1 x2 : Vec Ideal S128x128 .i32) :
    Gen.k0_pay7 (F := Ideal) x0 x1 x2 =
      multiReduction (F := Ideal) .add [0] S1x1
        (shapeCast S128x1x1
          (multiReduction (F := Ideal) .add [1] S128x1
            (mulf
              (matmul dot_S128x128x128_S128x128x1_S128x128x1_2_1_1_2_0_0 none (hingeCube x0)
                (shapeCast S128x128x1 (Gen.k0_pay6 (F := Ideal) x1 x2) Gen.shapeCasts_S128x128_S128x128x1)
                (constant (F := Ideal) S128x128x1 .f32 0x00000000#32))
              (shapeCast S128x128x1 (Gen.k0_pay5 (F := Ideal) x1) Gen.shapeCasts_S128x128_S128x128x1))
            0x00000000#32 Gen.reduces_S128x128x1_S128x1 (.inl rfl) rfl)
          Gen.shapeCasts_S128x1_S128x1x1)
        0x00000000#32 Gen.reduces_S128x1x1_S1x1 (.inl rfl) rfl := rfl

/-- Row b's entry of the product block times the top factor: one term of the row's loss. -/
theorem lossTerm_apply (x0 : Vec Ideal S128x128 .f32) (x1 x2 : Vec Ideal S128x128 .i32) (b i : Fin 128) :
    mulf
        (matmul dot_S128x128x128_S128x128x1_S128x128x1_2_1_1_2_0_0 none (hingeCube x0)
          (shapeCast S128x128x1 (Gen.k0_pay6 (F := Ideal) x1 x2) Gen.shapeCasts_S128x128_S128x128x1)
          (constant (F := Ideal) S128x128x1 .f32 0x00000000#32))
        (shapeCast S128x128x1 (Gen.k0_pay5 (F := Ideal) x1) Gen.shapeCasts_S128x128_S128x128x1) (ix3 b i (0 : Fin 1))
      = (∑ j : Fin 128, hinge x0 b i j * rest x1 x2 b j) * top x1 b i := by
  have e1 := batchedProduct_apply (hingeCube x0)
    (shapeCast S128x128x1 (Gen.k0_pay6 (F := Ideal) x1 x2) Gen.shapeCasts_S128x128_S128x128x1) b i (0 : Fin 1)
  have e2 : shapeCast S128x128x1 (Gen.k0_pay5 (F := Ideal) x1) Gen.shapeCasts_S128x128_S128x128x1 (ix3 b i (0 : Fin 1)) = top x1 b i :=
    (LibBlocks.shapeCast_ab_ab1_apply _ Gen.shapeCasts_S128x128_S128x128x1 b i (0 : Fin 1)).trans (topBlock_apply x1 b i)
  have e3 : ∀ j : Fin 128, hingeCube x0 (ix3 b i j)
      * shapeCast S128x128x1 (Gen.k0_pay6 (F := Ideal) x1 x2) Gen.shapeCasts_S128x128_S128x128x1 (ix3 b j (0 : Fin 1))
        = hinge x0 b i j * rest x1 x2 b j := fun j => by
    rw [hingeCube_apply, LibBlocks.shapeCast_ab_ab1_apply _ Gen.shapeCasts_S128x128_S128x128x1 b j (0 : Fin 1), restBlock_apply]
  rw [mulf_apply]
  refine Eq.trans (congrArg₂ (· * ·) e1 e2) ?_
  exact congrArg (· * top x1 b i) (Finset.sum_congr rfl fun j _ => e3 j)

/-- THE BLOCK'S LOSS: the one entry of the body's loss payload is the sum over the block's rows of each row's loss. -/
theorem blockLoss_eq (x0 : Vec Ideal S128x128 .f32) (x1 x2 : Vec Ideal S128x128 .i32) (y : S1x1.Idx) :
    Gen.k0_pay7 (F := Ideal) x0 x1 x2 y = ∑ b : Fin 128, rowLossFactored x0 x1 x2 b := by
  rw [lossPayload_eq]
  refine (sum_first_unit _ Gen.reduces_S128x1x1_S1x1 (.inl rfl) rfl y).trans ?_
  refine Finset.sum_congr rfl fun b _ => ?_
  refine (LibBlocks.shapeCast_ab_ab1_apply _ Gen.shapeCasts_S128x1_S128x1x1 b (0 : Fin 1) (0 : Fin 1)).trans ?_
  refine (LibCube.midSum_apply _ 0x00000000#32 Gen.reduces_S128x128x1_S128x1 (.inl rfl) rfl b (0 : Fin 1)).trans ?_
  exact Finset.sum_congr rfl fun i _ => lossTerm_apply x0 x1 x2 b i

/-! ## The pair count of one block -/

/-- The body's count payload at an index: the product of the two recast lane sums. -/
theorem countPayload_apply (x1 x2 : Vec Ideal S128x128 .i32) (j : S128x1.Idx) :
    Gen.k0_pay8 (F := Ideal) x1 x2 j =
      shapeCast S128x1 (multiReduction (F := Ideal) .add [1] S128 (Gen.k0_pay5 (F := Ideal) x1) 0x00000000#32
          Gen.reduces_S128x128_S128 (.inl rfl) rfl) Gen.shapeCasts_S128_S128x1 j
        * shapeCast S128x1 (multiReduction (F := Ideal) .add [1] S128 (Gen.k0_pay6 (F := Ideal) x1 x2) 0x00000000#32
          Gen.reduces_S128x128_S128 (.inl rfl) rfl) Gen.shapeCasts_S128_S128x1 j := rfl

/-- Row b's entry of the count payload is the row's pair count, as the product of its two entry counts. -/
theorem rowCount_apply (x1 x2 : Vec Ideal S128x128 .i32) (b : Fin 128) :
    Gen.k0_pay8 (F := Ideal) x1 x2 (ix2 b (0 : Fin 1)) = rowCountFactored x1 x2 b := by
  have e1 : shapeCast S128x1 (multiReduction (F := Ideal) .add [1] S128 (Gen.k0_pay5 (F := Ideal) x1) 0x00000000#32
      Gen.reduces_S128x128_S128 (.inl rfl) rfl) Gen.shapeCasts_S128_S128x1 (ix2 b (0 : Fin 1)) = ∑ i : Fin 128, top x1 b i :=
    (LibLossSums.cast_col _ Gen.shapeCasts_S128_S128x1 b).trans
      ((LibLossSums.red_mid _ Gen.reduces_S128x128_S128 (.inl rfl) rfl b).trans
        (Finset.sum_congr rfl fun i _ => topBlock_apply x1 b i))
  have e2 : shapeCast S128x1 (multiReduction (F := Ideal) .add [1] S128 (Gen.k0_pay6 (F := Ideal) x1 x2) 0x00000000#32
      Gen.reduces_S128x128_S128 (.inl rfl) rfl) Gen.shapeCasts_S128_S128x1 (ix2 b (0 : Fin 1)) = ∑ j : Fin 128, rest x1 x2 b j :=
    (LibLossSums.cast_col _ Gen.shapeCasts_S128_S128x1 b).trans
      ((LibLossSums.red_mid _ Gen.reduces_S128x128_S128 (.inl rfl) rfl b).trans
        (Finset.sum_congr rfl fun j _ => restBlock_apply x1 x2 b j))
  rw [countPayload_apply]
  exact congrArg₂ (· * ·) e1 e2

/-- THE BLOCK'S COUNT: the count payload summed over its first axis and recast to [1, 1] has as its one entry the sum
    over the block's rows of each row's pair count. -/
theorem blockCount_eq (x1 x2 : Vec Ideal S128x128 .i32) (y : S1x1.Idx) :
    shapeCast S1x1
        (multiReduction (F := Ideal) .add [0] S1 (Gen.k0_pay8 (F := Ideal) x1 x2) 0x00000000#32 Gen.reduces_S128x1_S1 (.inl rfl) rfl)
        Gen.shapeCasts_S1_S1x1 y
      = ∑ b : Fin 128, rowCountFactored x1 x2 b := by
  refine (LibLossSums.cast_one _ Gen.shapeCasts_S1_S1x1 y (ix1 (0 : Fin 1))).trans ?_
  refine (LibLossSums.red_first _ Gen.reduces_S128x1_S1 (.inl rfl) rfl (ix1 (0 : Fin 1))).trans ?_
  exact Finset.sum_congr rfl fun b _ => rowCount_apply x1 x2 b

end Cert.KernelIdeal.BlockPay

end
-- ==== Proof.LibBlockSum.lean ====
/-
  Sums over an index range cut into equal blocks, and the running sum a blocked accumulation builds: general facts
  about finite sums in an additive commutative monoid, stated for Fin (a * b) against Fin a × Fin b.
-/
import Mathlib.Algebra.BigOperators.Fin
import Mathlib.Logic.Equiv.Fin.Basic
import Mathlib.Tactic.Ring
import Mathlib.Tactic.Linarith

namespace LibBlockSum

open Finset

/-- A sum over a * b indices is the sum over a blocks of the sums over the b indices of each block; index
    b·p + q is entry q of block p. -/
theorem sum_blocks {M : Type*} [AddCommMonoid M] (a b : ℕ) (f : Fin (a * b) → M) :
    ∑ j, f j = ∑ p : Fin a, ∑ q : Fin b, f ⟨b * p.val + q.val, by
      have hp := p.isLt; have hq := q.isLt
      calc b * p.val + q.val < b * p.val + b := by omega
        _ = b * (p.val + 1) := by ring
        _ ≤ b * a := Nat.mul_le_mul_left b hp
        _ = a * b := Nat.mul_comm b a⟩ := by
  rw [← Equiv.sum_comp (finProdFinEquiv : Fin a × Fin b ≃ Fin (a * b)) f, Fintype.sum_prod_type]
  refine sum_congr rfl fun p _ => sum_congr rfl fun q _ => congrArg f (Fin.ext ?_)
  simp only [finProdFinEquiv_apply_val]
  ring

/-- An accumulator that starts from its first term and adds one term per step holds, after step n, the sum of the
    terms up to n. -/
theorem acc_eq_sum {M : Type*} [AddCommMonoid M] (g : ℕ → M) (acc : ℕ → M) (h0 : acc 0 = g 0)
    (hs : ∀ n, acc (n + 1) = acc n + g (n + 1)) (n : ℕ) : acc n = ∑ k ∈ range (n + 1), g k := by
  induction n with
  | zero => simp [h0]
  | succ n ih => rw [hs, ih, sum_range_succ _ (n + 1)]

end LibBlockSum
-- ==== Proof.BlockRows.lean ====
/-
  One grid point's block as rows of the arrays, and the grid's blocks as all the rows.

  The kernel's grid has 32 points; at point t each of the three input windows holds block (t, 0) of its [4096, 128]
  array, that is rows 128 · t … 128 · t + 127. So the loss and the pair count the body forms from the three blocks at
  point t are the sums, over b < 128, of the loss and the pair count of row 128 · t + b of the arrays: a row's loss and
  count read the arrays on that row only. And the 32 points' rows are, together, each of the 4096 rows once.
-/
import proofs.«157388_j9783935500651_2_alg».proof.Proof.Gen.KernelIdeal.Frame
import proofs.«157388_j9783935500651_2_alg».proof.Proof.BlockPay
import proofs.«157388_j9783935500651_2_alg».proof.Proof.PairSpec
import proofs.«157388_j9783935500651_2_alg».proof.Proof.LibBlockSum

noncomputable section

open scoped BigOperators

namespace Cert.KernelIdeal.BlockRows

open Idealize.ShloMosaic Idealize.ShloMosaic.ValueIdx Idealize.ShloMosaic.TcCoe Cert.PairSpec
open Idealize.SL Idealize.SL.Sem

variable (m : (ℓ : Loc nD τ sig) → Buf (Elt Ideal) ℓ) (c : Dev nD)

/-! ## Where a block's rows sit in the array -/

/-- The printed index maps, decided over the grid: at point t each of the three input windows is at block (t, 0). -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row b of block t is a row of the array: 128 · t + b < 4096, the grid having 32 points. -/
theorem row_lt (t : Fin cfg0.N) (b : Fin 128) : 128 * t.val + b.val < 4096 := by
  have ht : t.val < 32 := lt_of_lt_of_eq t.isLt Gen.N_0
  have hb : b.val < 128 := b.isLt
  omega

/-- The first window's block at point t is rows 128 · t … 128 · t + 127 of the array of scores. -/
theorem iblk0_apply (t : Fin cfg0.N) (b i : Fin 128) :
    (Gen.iblk m c 0 t : Vec Ideal S128x128 .f32) (ix2 b i)
      = (m ((c.tc : Thread nD τ).loc main_arg0) : S4096x128.Idx → EReal) (ix2 (⟨128 * t.val + b.val, row_lt t b⟩ : Fin 4096) i) := by
  obtain ⟨e0, e1, -⟩ := idx_in t
  unfold Gen.iblk
  rw [View.read_apply]
  show Gen.V m c main_arg0 (((cfg0.win 0).blk t).view.emb (ix2 b i)) = _
  rw [Gen.V_main_arg0]
  refine congrArg _ ?_
  funext a; apply Fin.ext
  match a with
  | ⟨0, _⟩ => show win0_0.index t (0 : Fin 2) * 128 + 1 * b.val = 128 * t.val + b.val; rw [e0]; omega
  | ⟨1, _⟩ => show win0_0.index t (1 : Fin 2) * 128 + 1 * i.val = i.val; rw [e1]; omega

/-- The second window's block at point t is rows 128 · t … 128 · t + 127 of the array of first marks. -/
theorem iblk1_apply (t : Fin cfg0.N) (b i : Fin 128) :
    (Gen.iblk m c 1 t : Vec Ideal S128x128 .i32) (ix2 b i)
      = (m ((c.tc : Thread nD τ).loc main_arg1) : S4096x128.Idx → BitVec 32) (ix2 (⟨128 * t.val + b.val, row_lt t b⟩ : Fin 4096) i) := by
  obtain ⟨-, -, e0, e1, -⟩ := idx_in t
  unfold Gen.iblk
  rw [View.read_apply]
  show Gen.V m c main_arg1 (((cfg0.win 1).blk t).view.emb (ix2 b i)) = _
  rw [Gen.V_main_arg1]
  refine congrArg _ ?_
  funext a; apply Fin.ext
  match a with
  | ⟨0, _⟩ => show win0_1.index t (0 : Fin 2) * 128 + 1 * b.val = 128 * t.val + b.val; rw [e0]; omega
  | ⟨1, _⟩ => show win0_1.index t (1 : Fin 2) * 128 + 1 * i.val = i.val; rw [e1]; omega

/-- The third window's block at point t is rows 128 · t … 128 · t + 127 of the array of second marks. -/
theorem iblk2_apply (t : Fin cfg0.N) (b i : Fin 128) :
    (Gen.iblk m c 2 t : Vec Ideal S128x128 .i32) (ix2 b i)
      = (m ((c.tc : Thread nD τ).loc main_arg2) : S4096x128.Idx → BitVec 32) (ix2 (⟨128 * t.val + b.val, row_lt t b⟩ : Fin 4096) i) := by
  obtain ⟨-, -, -, -, e0, e1⟩ := idx_in t
  unfold Gen.iblk
  rw [View.read_apply]
  show Gen.V m c main_arg2 (((cfg0.win 2).blk t).view.emb (ix2 b i)) = _
  rw [Gen.V_main_arg2]
  refine congrArg _ ?_
  funext a; apply Fin.ext
  match a with
  | ⟨0, _⟩ => show win0_2.index t (0 : Fin 2) * 128 + 1 * b.val = 128 * t.val + b.val; rw [e0]; omega
  | ⟨1, _⟩ => show win0_2.index t (1 : Fin 2) * 128 + 1 * i.val = i.val; rw [e1]; omega

/-! ## A row's loss and count read that row only -/

/-- A row's loss reads its three arrays on that row only: two triples of arrays that agree on a row of each give that
    row the same loss. -/
theorem rowLossFactored_congr {R R' : ℕ}
    (A0 : (⟨2, ![R, 128]⟩ : Shape).Idx → EReal) (A1 A2 : (⟨2, ![R, 128]⟩ : Shape).Idx → BitVec 32)
    (B0 : (⟨2, ![R', 128]⟩ : Shape).Idx → EReal) (B1 B2 : (⟨2, ![R', 128]⟩ : Shape).Idx → BitVec 32)
    (r : Fin R) (r' : Fin R')
    (h0 : ∀ i : Fin 128, A0 (ix2 r i) = B0 (ix2 r' i)) (h1 : ∀ i : Fin 128, A1 (ix2 r i) = B1 (ix2 r' i))
    (h2 : ∀ i : Fin 128, A2 (ix2 r i) = B2 (ix2 r' i)) :
    rowLossFactored A0 A1 A2 r = rowLossFactored B0 B1 B2 r' := by
  unfold rowLossFactored hinge top rest
  simp only [h0, h1, h2]

/-- Likewise a row's pair count reads the two arrays of marks on that row only. -/
theorem rowCountFactored_congr {R R' : ℕ}
    (A1 A2 : (⟨2, ![R, 128]⟩ : Shape).Idx → BitVec 32) (B1 B2 : (⟨2, ![R', 128]⟩ : Shape).Idx → BitVec 32)
    (r : Fin R) (r' : Fin R')
    (h1 : ∀ i : Fin 128, A1 (ix2 r i) = B1 (ix2 r' i)) (h2 : ∀ i : Fin 128, A2 (ix2 r i) = B2 (ix2 r' i)) :
    rowCountFactored A1 A2 r = rowCountFactored B1 B2 r' := by
  unfold rowCountFactored top rest
  simp only [h1, h2]

/-! ## One grid point's loss and count as sums over rows of the arrays -/

/-- The loss the body forms at point t is the sum of the losses of rows 128 · t … 128 · t + 127 of the arrays. -/
theorem blockLoss_rows (t : Fin cfg0.N) (y : S1x1.Idx) :
    Gen.k0_pay7 (F := Ideal) (Gen.iblk m c 0 t) (Gen.iblk m c 1 t) (Gen.iblk m c 2 t) y
      = ∑ b : Fin 128, rowLossFactored (R := 4096)
          (m ((c.tc : Thread nD τ).loc main_arg0) : S4096x128.Idx → EReal)
          (m ((c.tc : Thread nD τ).loc main_arg1) : S4096x128.Idx → BitVec 32)
          (m ((c.tc : Thread nD τ).loc main_arg2) : S4096x128.Idx → BitVec 32)
          (⟨128 * t.val + b.val, row_lt t b⟩ : Fin 4096) := by
  refine (BlockPay.blockLoss_eq (Gen.iblk m c 0 t) (Gen.iblk m c 1 t) (Gen.iblk m c 2 t) y).trans ?_
  refine Finset.sum_congr rfl fun b _ => ?_
  exact rowLossFactored_congr (R := 128) (R' := 4096)
    (Gen.iblk m c 0 t : Vec Ideal S128x128 .f32) (Gen.iblk m c 1 t : Vec Ideal S128x128 .i32) (Gen.iblk m c 2 t : Vec Ideal S128x128 .i32)
    (m ((c.tc : Thread nD τ).loc main_arg0) : S4096x128.Idx → EReal)
    (m ((c.tc : Thread nD τ).loc main_arg1) : S4096x128.Idx → BitVec 32)
    (m ((c.tc : Thread nD τ).loc main_arg2) : S4096x128.Idx → BitVec 32)
    b (⟨128 * t.val + b.val, row_lt t b⟩ : Fin 4096)
    (fun i => iblk0_apply m c t b i) (fun i => iblk1_apply m c t b i) (fun i => iblk2_apply m c t b i)

/-- The pair count the body forms at point t is the sum of the pair counts of rows 128 · t … 128 · t + 127. -/
theorem blockCount_rows (t : Fin cfg0.N) (y : S1x1.Idx) :
    shapeCast S1x1
        (multiReduction (F := Ideal) .add [0] S1 (Gen.k0_pay8 (F := Ideal) (Gen.iblk m c 1 t) (Gen.iblk m c 2 t)) 0x00000000#32
          Gen.reduces_S128x1_S1 (.inl rfl) rfl)
        Gen.shapeCasts_S1_S1x1 y
      = ∑ b : Fin 128, rowCountFactored (R := 4096)
          (m ((c.tc : Thread nD τ).loc main_arg1) : S4096x128.Idx → BitVec 32)
          (m ((c.tc : Thread nD τ).loc main_arg2) : S4096x128.Idx → BitVec 32)
          (⟨128 * t.val + b.val, row_lt t b⟩ : Fin 4096) := by
  refine (BlockPay.blockCount_eq (Gen.iblk m c 1 t) (Gen.iblk m c 2 t) y).trans ?_
  refine Finset.sum_congr rfl fun b _ => ?_
  exact rowCountFactored_congr (R := 128) (R' := 4096)
    (Gen.iblk m c 1 t : Vec Ideal S128x128 .i32) (Gen.iblk m c 2 t : Vec Ideal S128x128 .i32)
    (m ((c.tc : Thread nD τ).loc main_arg1) : S4096x128.Idx → BitVec 32)
    (m ((c.tc : Thread nD τ).loc main_arg2) : S4096x128.Idx → BitVec 32)
    b (⟨128 * t.val + b.val, row_lt t b⟩ : Fin 4096)
    (fun i => iblk1_apply m c t b i) (fun i => iblk2_apply m c t b i)

/-! ## All points' rows are all rows -/

/-- Row b of block t, for t < 32 and b < 128, is a row below 4096. -/
theorem row_lt' (t : Fin 32) (b : Fin 128) : 128 * t.val + b.val < 4096 := by
  have ht : t.val < 32 := t.isLt
  have hb : b.val < 128 := b.isLt
  omega

/-- Summing over the 32 points and the 128 rows of each point's block sums over the 4096 rows. -/
theorem sum_points_rows (f : Fin 4096 → EReal) :
    (∑ t : Fin 32, ∑ b : Fin 128, f (⟨128 * t.val + b.val, row_lt' t b⟩ : Fin 4096)) = ∑ r : Fin 4096, f r :=
  (LibBlockSum.sum_blocks 32 128 f).symm

/-- The same with the points indexed as the grid indexes them. -/
theorem sum_gridPoints_rows (f : Fin 4096 → EReal) :
    (∑ t : Fin cfg0.N, ∑ b : Fin 128, f (⟨128 * t.val + b.val, row_lt t b⟩ : Fin 4096)) = ∑ r : Fin 4096, f r := by
  rw [← sum_points_rows f]
  exact Fintype.sum_equiv (finCongr Gen.N_0) _ _ (fun t => rfl)

end Cert.KernelIdeal.BlockRows

end
-- ==== Proof.PairAlgebra.lean ====
/-
  The two ways of writing a row's loss and a row's pair count agree.

  The top and rest factors of an entry are 0 or 1. Such a factor distributes over any finite sum of extended reals:
  times 0 both sides are 0, times 1 both sides are the sum itself. So the row loss with the sum over j taken before
  the factor of i is applied equals the row loss with the pair's weight formed first. For the count, any factor
  distributes over a finite sum of terms that are not negative, which splits the product of the two entry counts into
  one term per top entry; each of those is again a 0/1 factor times a sum. No score is assumed finite.
-/
import proofs.«157388_j9783935500651_2_alg».proof.Proof.PairSpec
import Mathlib.Data.EReal.Operations
import Mathlib.Data.EReal.Inv

noncomputable section

open scoped BigOperators

namespace Cert.PairSpec

open Idealize.ShloMosaic Idealize.ShloMosaic.ValueIdx

/-- A 0/1 factor is not negative. -/
theorem bit_nonneg (b : BitVec 1) : 0 ≤ bit b := by
  rcases bit_zero_or_one b with h | h
  · rw [h]
  · rw [h]; exact zero_le_one

/-- The top factor of an entry is 0 or 1 … -/
theorem top_zero_or_one {R : ℕ} (X1 : (⟨2, ![R, 128]⟩ : Shape).Idx → BitVec 32) (r : Fin R) (i : Fin 128) :
    top X1 r i = 0 ∨ top X1 r i = 1 := bit_zero_or_one _

/-- … and so not negative. -/
theorem top_nonneg {R : ℕ} (X1 : (⟨2, ![R, 128]⟩ : Shape).Idx → BitVec 32) (r : Fin R) (i : Fin 128) :
    0 ≤ top X1 r i := bit_nonneg _

/-- A factor that is 0 or 1 distributes over any finite sum, from the left … -/
theorem zero_one_mul_sum {ι : Type} (s : Finset ι) (f : ι → EReal) {t : EReal} (ht : t = 0 ∨ t = 1) :
    t * ∑ j ∈ s, f j = ∑ j ∈ s, t * f j := by
  rcases ht with h | h <;> subst h
  · simp only [zero_mul, Finset.sum_const_zero]
  · simp only [one_mul]

/-- … and from the right. -/
theorem sum_mul_zero_one {ι : Type} (s : Finset ι) (f : ι → EReal) {t : EReal} (ht : t = 0 ∨ t = 1) :
    (∑ j ∈ s, f j) * t = ∑ j ∈ s, f j * t := by
  rcases ht with h | h <;> subst h
  · simp only [mul_zero, Finset.sum_const_zero]
  · simp only [mul_one]

/-- Any factor distributes over a finite sum of terms that are not negative. -/
theorem sum_nonneg_mul {ι : Type} (s : Finset ι) (a : ι → EReal) (ha : ∀ e, 0 ≤ a e) (w : EReal) :
    (∑ e ∈ s, a e) * w = ∑ e ∈ s, a e * w := by
  classical
  refine Finset.induction_on s (by simp) fun x s hx ih => ?_
  rw [Finset.sum_insert hx, Finset.sum_insert hx,
    EReal.right_distrib_of_nonneg (ha x) (Finset.sum_nonneg fun e _ => ha e), ih]

/-- The row loss summed over j before the factor of i is applied is the row loss with the pair's weight formed first. -/
theorem rowLossFactored_eq {R : ℕ} (X0 : (⟨2, ![R, 128]⟩ : Shape).Idx → EReal)
    (X1 X2 : (⟨2, ![R, 128]⟩ : Shape).Idx → BitVec 32) (r : Fin R) :
    rowLossFactored X0 X1 X2 r = rowLoss X0 X1 X2 r := by
  unfold rowLossFactored rowLoss
  refine Finset.sum_congr rfl fun i _ => ?_
  rw [sum_mul_zero_one _ _ (top_zero_or_one X1 r i)]
  refine Finset.sum_congr rfl fun j _ => ?_
  rw [mul_assoc, mul_comm (rest X1 X2 r j) (top X1 r i)]

/-- The product of the two entry counts of a row is its pair count. -/
theorem rowCountFactored_eq {R : ℕ} (X1 X2 : (⟨2, ![R, 128]⟩ : Shape).Idx → BitVec 32) (r : Fin R) :
    rowCountFactored X1 X2 r = rowCount X1 X2 r := by
  unfold rowCountFactored rowCount
  rw [sum_nonneg_mul _ (fun i => top X1 r i) (fun i => top_nonneg X1 r i)]
  exact Finset.sum_congr rfl fun i _ => zero_one_mul_sum _ _ (top_zero_or_one X1 r i)

end Cert.PairSpec

end
-- ==== Proof.KernelValue.lean ====
/-
  The idealized kernel program's result as a function of its arguments.

  After the grid the two result arrays hold each sweep's sums at entry (p, 0, 0) and zeros elsewhere; the host then sums
  each array whole, which gives the sum of the 32 points' terms; point t's term is the sum over the 128 rows of block t of
  the row's loss (its pair count), so the two totals are the sums over all 4096 rows; the host's last step is the shared
  one. The loss of a row in the kernel's arrangement (the sum over j taken before the factor of i) equals the
  pair-by-pair one because the marks are 0/1 factors.
-/
import proofs.«157388_j9783935500651_2_alg».proof.Proof.Final
import proofs.«157388_j9783935500651_2_alg».proof.Proof.HostTail
import proofs.«157388_j9783935500651_2_alg».proof.Proof.BlockRows
import proofs.«157388_j9783935500651_2_alg».proof.Proof.PairAlgebra
import Idealize.ShloMosaic.Lib.Pipeline.Value

noncomputable section

open Idealize.ShloMosaic Idealize.ShloMosaic.TcCoe Idealize.SL.Sem
open Idealize.ShloMosaic.ValueIdx
open scoped BigOperators

open Idealize.ShloMosaic.Pipeline (Dat)

namespace Cert.KernelIdeal.KernelValue

open Cert.KernelIdeal Cert.KernelIdeal.Gen Cert.KernelIdeal.Pieces Cert.KernelIdeal.Accum Cert.KernelIdeal.Final

/-- In an [8, 128] slab that is v at (0, 0) and zero elsewhere, the entries sum to v. -/
theorem sum_origin (v : EReal) : ∑ b : Fin 8, ∑ d : Fin 128, (if b.val = 0 ∧ d.val = 0 then v else 0) = v := by
  rw [Finset.sum_eq_single (0 : Fin 8)]
  · rw [Finset.sum_eq_single (0 : Fin 128)]
    · simp
    · intro d _ hd
      rw [if_neg]
      intro h
      exact hd (Fin.ext h.2)
    · intro h; exact absurd (Finset.mem_univ _) h
  · intro b _ hb
    refine Finset.sum_eq_zero fun d _ => ?_
    rw [if_neg]
    intro h
    exact hb (Fin.ext h.1)
  · intro h; exact absurd (Finset.mem_univ _) h

/-- The entries of a sweep array sum to the sum of its terms over all 32 points. -/
theorem sweep_total (f : ℕ → EReal) :
    ∑ a : Fin 2, ∑ b : Fin 8, ∑ d : Fin 128, sweepArr f (ix3 a b d) = ∑ t : Fin 32, f t.val := by
  have e : ∀ a : Fin 2, ∑ b : Fin 8, ∑ d : Fin 128, sweepArr f (ix3 a b d) = ∑ k ∈ Finset.range 16, f (16 * a.val + k) :=
    fun a => sum_origin _
  rw [Finset.sum_congr rfl fun a _ => e a, Fin.sum_univ_two, ← Finset.sum_range (fun t => f t),
    show (32 : ℕ) = 16 + 16 from rfl, Finset.sum_range_add]
  simp only [Fin.val_zero, Fin.val_one, Nat.mul_zero, Nat.mul_one, Nat.zero_add]

variable (m : (ℓ : Loc nD τ sig) → Buf (Elt Ideal) ℓ)

/-- Point t's loss term is the sum of the losses of the 128 rows of block t, each in the kernel's arrangement. -/
theorem lossAt_rows (c : Dev nD) (t : Fin 32) :
    lossAt m c t.val = ∑ b : Fin 128, Cert.PairSpec.rowLossFactored (R := 4096) (m ((c.tc : Thread nD τ).loc main_arg0) : S4096x128.Idx → EReal) (m ((c.tc : Thread nD τ).loc main_arg1) : S4096x128.Idx → BitVec 32) (m ((c.tc : Thread nD τ).loc main_arg2) : S4096x128.Idx → BitVec 32)
      (⟨128 * t.val + b.val, BlockRows.row_lt' t b⟩ : Fin 4096) := by
  have h : t.val < cfg0.N := by rw [show cfg0.N = 32 from N_0]; exact t.isLt
  rw [lossAt, dif_pos h]
  exact BlockRows.blockLoss_rows m c ⟨t.val, h⟩ (ix2 0 0)

/-- Point t's pair count is the sum of the pair counts of the 128 rows of block t. -/
theorem countAt_rows (c : Dev nD) (t : Fin 32) :
    countAt m c t.val = ∑ b : Fin 128, Cert.PairSpec.rowCountFactored (R := 4096) (m ((c.tc : Thread nD τ).loc main_arg1) : S4096x128.Idx → BitVec 32) (m ((c.tc : Thread nD τ).loc main_arg2) : S4096x128.Idx → BitVec 32)
      (⟨128 * t.val + b.val, BlockRows.row_lt' t b⟩ : Fin 4096) := by
  have h : t.val < cfg0.N := by rw [show cfg0.N = 32 from N_0]; exact t.isLt
  rw [countAt, dif_pos h]
  exact BlockRows.blockCount_rows m c ⟨t.val, h⟩ (ix2 0 0)

/-- The total loss over the grid is the sum of the rows' losses. -/
theorem loss_total (c : Dev nD) :
    ∑ t : Fin 32, lossAt m c t.val = ∑ r : Fin 4096, Cert.PairSpec.rowLoss (m ((c.tc : Thread nD τ).loc main_arg0) : S4096x128.Idx → EReal) (m ((c.tc : Thread nD τ).loc main_arg1) : S4096x128.Idx → BitVec 32) (m ((c.tc : Thread nD τ).loc main_arg2) : S4096x128.Idx → BitVec 32) r := by
  refine (Finset.sum_congr rfl fun t _ => lossAt_rows m c t).trans ?_
  refine (BlockRows.sum_points_rows (fun r => Cert.PairSpec.rowLossFactored (R := 4096) (m ((c.tc : Thread nD τ).loc main_arg0) : S4096x128.Idx → EReal) (m ((c.tc : Thread nD τ).loc main_arg1) : S4096x128.Idx → BitVec 32) (m ((c.tc : Thread nD τ).loc main_arg2) : S4096x128.Idx → BitVec 32) r)).trans ?_
  exact Finset.sum_congr rfl fun r _ => Cert.PairSpec.rowLossFactored_eq _ _ _ r

/-- The total pair count over the grid is the sum of the rows' pair counts. -/
theorem count_total (c : Dev nD) :
    ∑ t : Fin 32, countAt m c t.val = ∑ r : Fin 4096, Cert.PairSpec.rowCount (m ((c.tc : Thread nD τ).loc main_arg1) : S4096x128.Idx → BitVec 32) (m ((c.tc : Thread nD τ).loc main_arg2) : S4096x128.Idx → BitVec 32) r := by
  refine (Finset.sum_congr rfl fun t _ => countAt_rows m c t).trans ?_
  refine (BlockRows.sum_points_rows (fun r => Cert.PairSpec.rowCountFactored (R := 4096) (m ((c.tc : Thread nD τ).loc main_arg1) : S4096x128.Idx → BitVec 32) (m ((c.tc : Thread nD τ).loc main_arg2) : S4096x128.Idx → BitVec 32) r)).trans ?_
  exact Finset.sum_congr rfl fun r _ => Cert.PairSpec.rowCountFactored_eq _ _ r

/-- THE RESULT: what the program's result buffer holds after the host's last operations. -/
theorem result_eq (c : Dev nD) :
    Pipeline.afterTail₀ cfgs (dats m) 0 (V0 m) [hostOps1, hostOps1_1] c main_v6
      = Cert.PairSpec.finish (fun _ => ∑ r : Fin 4096, Cert.PairSpec.rowLoss (m ((c.tc : Thread nD τ).loc main_arg0) : S4096x128.Idx → EReal) (m ((c.tc : Thread nD τ).loc main_arg1) : S4096x128.Idx → BitVec 32) (m ((c.tc : Thread nD τ).loc main_arg2) : S4096x128.Idx → BitVec 32) r)
          (fun _ => ∑ r : Fin 4096, Cert.PairSpec.rowCount (m ((c.tc : Thread nD τ).loc main_arg1) : S4096x128.Idx → BitVec 32) (m ((c.tc : Thread nD τ).loc main_arg2) : S4096x128.Idx → BitVec 32) r) := by
  rw [HostTail.tail_of m c (sweepArr (lossAt m c)) (sweepArr (countAt m c)) (final3 m c) (final4 m c)]
  have eL : (∑ a : Fin 2, ∑ b : Fin 8, ∑ d : Fin 128, sweepArr (lossAt m c) (ix3 a b d)) = ∑ r : Fin 4096, Cert.PairSpec.rowLoss (m ((c.tc : Thread nD τ).loc main_arg0) : S4096x128.Idx → EReal) (m ((c.tc : Thread nD τ).loc main_arg1) : S4096x128.Idx → BitVec 32) (m ((c.tc : Thread nD τ).loc main_arg2) : S4096x128.Idx → BitVec 32) r :=
    (sweep_total (lossAt m c)).trans (loss_total m c)
  have eC : (∑ a : Fin 2, ∑ b : Fin 8, ∑ d : Fin 128, sweepArr (countAt m c) (ix3 a b d)) = ∑ r : Fin 4096, Cert.PairSpec.rowCount (m ((c.tc : Thread nD τ).loc main_arg1) : S4096x128.Idx → BitVec 32) (m ((c.tc : Thread nD τ).loc main_arg2) : S4096x128.Idx → BitVec 32) r :=
    (sweep_total (countAt m c)).trans (count_total m c)
  rw [eL, eC]

/-- THE RUN, READ: every weakly fair execution ends with the result buffer at the final step applied to the two totals,
    and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6)
        = Cert.PairSpec.finish (fun _ => ∑ r : Fin 4096, Cert.PairSpec.rowLoss (m ((c.tc : Thread nD τ).loc main_arg0) : S4096x128.Idx → EReal) (m ((c.tc : Thread nD τ).loc main_arg1) : S4096x128.Idx → BitVec 32) (m ((c.tc : Thread nD τ).loc main_arg2) : S4096x128.Idx → BitVec 32) r)
            (fun _ => ∑ r : Fin 4096, Cert.PairSpec.rowCount (m ((c.tc : Thread nD τ).loc main_arg1) : S4096x128.Idx → BitVec 32) (m ((c.tc : Thread nD τ).loc main_arg2) : S4096x128.Idx → BitVec 32) r)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelValue

end
-- ==== Proof.RefRun.lean ====
/-
  The reference program's run: the program as the list of its 39 host operations (the two called functions'
  operations standing at their call sites), the composed value of its result as a function of the three arguments,
  built from named stages, and the statement that every weakly fair execution ends with the result buffer at that
  value and the arguments unchanged.
-/
import proofs.«157388_j9783935500651_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 39 operations, in order (a called function's operations stand in its call's place, spelt `TRef.…`). -/
abbrev ops : List (HloOp τ sig (Elt F)) :=
  [ nullary main_c (constantI S_ 32 1#32),
    unary main_c main_v0 (broadcastInDim S4096x128 ![] bcast_S_S4096x128 : (⟨S_, .i32⟩ : BufTy).Contents (Elt F) → (⟨S4096x128, .i32⟩ : BufTy).Contents (Elt F)),
    binary main_arg1 main_v0 main_v1 (cmpi .eq : (⟨S4096x128, .i32⟩ : BufTy).Contents (Elt F) → (⟨S4096x128, .i32⟩ : BufTy).Contents (Elt F) → (⟨S4096x128, .i1⟩ : BufTy).Contents (Elt F)),
    unary main_v1 main_v2 (uitofp .f32 : (⟨S4096x128, .i1⟩ : BufTy).Contents (Elt F) → (⟨S4096x128, .f32⟩ : BufTy).Contents (Elt F)),
    nullary main_c_0 (constantI S_ 32 0#32),
    unary main_c_0 main_v3 (broadcastInDim S4096x128 ![] bcast_S_S4096x128 : (⟨S_, .i32⟩ : BufTy).Contents (Elt F) → (⟨S4096x128, .i32⟩ : BufTy).Contents (Elt F)),
    binary main_arg1 main_v3 main_v4 (cmpi .eq : (⟨S4096x128, .i32⟩ : BufTy).Contents (Elt F) → (⟨S4096x128, .i32⟩ : BufTy).Contents (Elt F) → (⟨S4096x128, .i1⟩ : BufTy).Contents (Elt F)),
    nullary main_c_1 (constantI S_ 32 1#32),
    unary main_c_1 main_v5 (broadcastInDim S4096x128 ![] bcast_S_S4096x128 : (⟨S_, .i32⟩ : BufTy).Contents (Elt F) → (⟨S4096x128, .i32⟩ : BufTy).Contents (Elt F)),
    binary main_arg2 main_v5 main_v6 (cmpi .eq : (⟨S4096x128, .i32⟩ : BufTy).Contents (Elt F) → (⟨S4096x128, .i32⟩ : BufTy).Contents (Elt F) → (⟨S4096x128, .i1⟩ : BufTy).Contents (Elt F)),
    binary main_v4 main_v6 main_v7 (andi : (⟨S4096x128, .i1⟩ : BufTy).Contents (Elt F) → (⟨S4096x128, .i1⟩ : BufTy).Contents (Elt F) → (⟨S4096x128, .i1⟩ : BufTy).Contents (Elt F)),
    unary main_v7 main_v8 (uitofp .f32 : (⟨S4096x128, .i1⟩ : BufTy).Contents (Elt F) → (⟨S4096x128, .f32⟩ : BufTy).Contents (Elt F)),
    unary main_v2 main_v9 (broadcastInDim S4096x128x1 ![0, 1] bcast_S4096x128_S4096x128x1_0_1 : (⟨S4096x128, .f32⟩ : BufTy).Contents (Elt F) → (⟨S4096x128x1, .f32⟩ : BufTy).Contents (Elt F)),
    unary main_v8 main_v10 (broadcastInDim S4096x1x128 ![0, 2] bcast_S4096x128_S4096x1x128_0_2 : (⟨S4096x128, .f32⟩ : BufTy).Contents (Elt F) → (⟨S4096x1x128, .f32⟩ : BufTy).Contents (Elt F)),
    unary main_v9 main_v11 (broadcastInDim S4096x128x128 ![0, 1, 2] bcast_S4096x128x1_S4096x128x128_0_1_2 : (⟨S4096x128x1, .f32⟩ : BufTy).Contents (Elt F) → (⟨S4096x128x128, .f32⟩ : BufTy).Contents (Elt F)),
    unary main_v10 main_v12 (broadcastInDim S4096x128x128 ![0, 1, 2] bcast_S4096x1x128_S4096x128x128_0_1_2 : (⟨S4096x1x128, .f32⟩ : BufTy).Contents (Elt F) → (⟨S4096x128x128, .f32⟩ : BufTy).Contents (Elt F)),
    binary main_v11 main_v12 main_v13 (mulf : (⟨S4096x128x128, .f32⟩ : BufTy).Contents (Elt F) → (⟨S4096x128x128, .f32⟩ : BufTy).Contents (Elt F) → (⟨S4096x128x128, .f32⟩ : BufTy).Contents (Elt F)),
    unary main_arg0 main_v14 (broadcastInDim S4096x128x1 ![0, 1] bcast_S4096x128_S4096x128x1_0_1 : (⟨S4096x128, .f32⟩ : BufTy).Contents (Elt F) → (⟨S4096x128x1, .f32⟩ : BufTy).Contents (Elt F)),
    unary main_arg0 main_v15 (broadcastInDim S4096x1x128 ![0, 2] bcast_S4096x128_S4096x1x128_0_2 : (⟨S4096x128, .f32⟩ : BufTy).Contents (Elt F) → (⟨S4096x1x128, .f32⟩ : BufTy).Contents (Elt F)),
    unary main_v14 main_v16 (broadcastInDim S4096x128x128 ![0, 1, 2] bcast_S4096x128x1_S4096x128x128_0_1_2 : (⟨S4096x128x1, .f32⟩ : BufTy).Contents (Elt F) → (⟨S4096x128x128, .f32⟩ : BufTy).Contents (Elt F)),
    unary main_v15 main_v17 (broadcastInDim S4096x128x128 ![0, 1, 2] bcast_S4096x1x128_S4096x128x128_0_1_2 : (⟨S4096x1x128, .f32⟩ : BufTy).Contents (Elt F) → (⟨S4096x128x128, .f32⟩ : BufTy).Contents (Elt F)),
    binary main_v16 main_v17 main_v18 (subf : (⟨S4096x128x128, .f32⟩ : BufTy).Contents (Elt F) → (⟨S4096x128x128, .f32⟩ : BufTy).Contents (Elt F) → (⟨S4096x128x128, .f32⟩ : BufTy).Contents (Elt F)),
    nullary main_cst (constant S_ .f32 0x3F800000#32),
    unary main_cst main_v19 (broadcastInDim S4096x128x128 ![] bcast_S_S4096x128x128 : (⟨S_, .f32⟩ : BufTy).Contents (Elt F) → (⟨S4096x128x128, .f32⟩ : BufTy).Contents (Elt F)),
    binary main_v19 main_v18 main_v20 (subf : (⟨S4096x128x128, .f32⟩ : BufTy).Contents (Elt F) → (⟨S4096x128x128, .f32⟩ : BufTy).Contents (Elt F) → (⟨S4096x128x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x128x128, .f32⟩) main_call0_v0) (broadcastInDim S4096x128x128 ![] bcast_S_S4096x128x128 : (⟨S_, .f32⟩ : BufTy).Contents (Elt F) → (⟨S4096x128x128, .f32⟩ : BufTy).Contents (Elt F)),
    TRef.binary (TRef.of (T := ⟨S4096x128x128, .f32⟩) main_v20) (TRef.of (T := ⟨S4096x128x128, .f32⟩) main_call0_v0) (TRef.of (T := ⟨S4096x128x128, .f32⟩) main_v21) (maximumf : (⟨S4096x128x128, .f32⟩ : BufTy).Contents (Elt F) → (⟨S4096x128x128, .f32⟩ : BufTy).Contents (Elt F) → (⟨S4096x128x128, .f32⟩ : BufTy).Contents (Elt F)),
    binary main_v21 main_v13 main_v22 (mulf : (⟨S4096x128x128, .f32⟩ : BufTy).Contents (Elt F) → (⟨S4096x128x128, .f32⟩ : BufTy).Contents (Elt F) → (⟨S4096x128x128, .f32⟩ : BufTy).Contents (Elt F)),
    nullary main_cst_2 (constant S_ .f32 0x00000000#32),
    binary main_v22 main_cst_2 main_v23 ((fun x v => Host.reduceAdd x v reducesTo_S4096x128x128_S_d0_1_2 h_S_) : (⟨S4096x128x128, .f32⟩ : BufTy).Contents (Elt F) → (⟨S_, .f32⟩ : BufTy).Contents (Elt F) → (⟨S_, .f32⟩ : BufTy).Contents (Elt F)),
    nullary main_cst_3 (constant S_ .f32 0x00000000#32),
    binary main_v13 main_cst_3 main_v24 ((fun x v => Host.reduceAdd x v reducesTo_S4096x128x128_S_d0_1_2 h_S_) : (⟨S4096x128x128, .f32⟩ : BufTy).Contents (Elt F) → (⟨S_, .f32⟩ : BufTy).Contents (Elt F) → (⟨S_, .f32⟩ : BufTy).Contents (Elt F)),
    nullary main_cst_4 (constant S_ .f32 0x00000000#32),
    binary main_v24 main_cst_4 main_v25 (cmpf .ogt : (⟨S_, .f32⟩ : BufTy).Contents (Elt F) → (⟨S_, .f32⟩ : BufTy).Contents (Elt F) → (⟨S_, .i1⟩ : BufTy).Contents (Elt F)),
    nullary main_cst_5 (constant S_ .f32 0x3F800000#32),
    binary main_v24 main_cst_5 main_v26 (maximumf : (⟨S_, .f32⟩ : BufTy).Contents (Elt F) → (⟨S_, .f32⟩ : BufTy).Contents (Elt F) → (⟨S_, .f32⟩ : BufTy).Contents (Elt F)),
    binary main_v23 main_v26 main_v27 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v25) (TRef.of (T := ⟨S_, .f32⟩) main_v27) (TRef.of (T := ⟨S_, .f32⟩) main_v23) (TRef.of (T := ⟨S_, .f32⟩) main_v28) (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]

-- thirty-nine binds re-associated, the two called bodies unfolded at their calls
set_option maxRecDepth 1024 in
theorem main_eq (c : Dev nD) : main (F := F) c = seq ops := by
  simp only [main, fn_relu.body, fn_where.body, seq, bind_assoc, pure_bind]
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., ternary_bufs_sub ..⟩

/-! ## The result's value, stage by stage -/

/-- Per entry, 1.0 where the first mark is 1 and 0.0 elsewhere. -/
def topF (x1 : (⟨S4096x128, .i32⟩ : BufTy).Contents (Elt F)) : (⟨S4096x128, .f32⟩ : BufTy).Contents (Elt F) :=
  uitofp .f32 (cmpi .eq x1 (broadcastInDim S4096x128 ![] bcast_S_S4096x128 (constantI S_ 32 1#32)))

/-- Per entry, 1.0 where the first mark is 0 and the second mark is 1, and 0.0 elsewhere. -/
def restF (x1 x2 : (⟨S4096x128, .i32⟩ : BufTy).Contents (Elt F)) : (⟨S4096x128, .f32⟩ : BufTy).Contents (Elt F) :=
  uitofp .f32 (andi (cmpi .eq x1 (broadcastInDim S4096x128 ![] bcast_S_S4096x128 (constantI S_ 32 0#32)))
    (cmpi .eq x2 (broadcastInDim S4096x128 ![] bcast_S_S4096x128 (constantI S_ 32 1#32))))

/-- The weight of the pair (i, j) of row r, at index (r, i, j): the first factor of entry i times the second of entry j. -/
def weight (x1 x2 : (⟨S4096x128, .i32⟩ : BufTy).Contents (Elt F)) : (⟨S4096x128x128, .f32⟩ : BufTy).Contents (Elt F) :=
  mulf (broadcastInDim S4096x128x128 ![0, 1, 2] bcast_S4096x128x1_S4096x128x128_0_1_2 (broadcastInDim S4096x128x1 ![0, 1] bcast_S4096x128_S4096x128x1_0_1 (topF x1)))
    (broadcastInDim S4096x128x128 ![0, 1, 2] bcast_S4096x1x128_S4096x128x128_0_1_2 (broadcastInDim S4096x1x128 ![0, 2] bcast_S4096x128_S4096x1x128_0_2 (restF x1 x2)))

/-- The score difference s i - s j of row r, at index (r, i, j). -/
def diff (x0 : (⟨S4096x128, .f32⟩ : BufTy).Contents (Elt F)) : (⟨S4096x128x128, .f32⟩ : BufTy).Contents (Elt F) :=
  subf (broadcastInDim S4096x128x128 ![0, 1, 2] bcast_S4096x128x1_S4096x128x128_0_1_2 (broadcastInDim S4096x128x1 ![0, 1] bcast_S4096x128_S4096x128x1_0_1 x0))
    (broadcastInDim S4096x128x128 ![0, 1, 2] bcast_S4096x1x128_S4096x128x128_0_1_2 (broadcastInDim S4096x1x128 ![0, 2] bcast_S4096x128_S4096x1x128_0_2 x0))

/-- The hinge max (1 - (s i - s j), 0) of row r, at index (r, i, j). -/
def hingeT (x0 : (⟨S4096x128, .f32⟩ : BufTy).Contents (Elt F)) : (⟨S4096x128x128, .f32⟩ : BufTy).Contents (Elt F) :=
  maximumf (subf (broadcastInDim S4096x128x128 ![] bcast_S_S4096x128x128 (constant S_ .f32 0x3F800000#32)) (diff x0))
    (broadcastInDim S4096x128x128 ![] bcast_S_S4096x128x128 (constant S_ .f32 0x00000000#32))

/-- The sum of hinge times weight over every index, from the word of 0.0. -/
def lossSum (x0 : (⟨S4096x128, .f32⟩ : BufTy).Contents (Elt F)) (x1 x2 : (⟨S4096x128, .i32⟩ : BufTy).Contents (Elt F)) : (⟨S_, .f32⟩ : BufTy).Contents (Elt F) :=
  Host.reduceAdd (mulf (hingeT x0) (weight x1 x2)) (constant S_ .f32 0x00000000#32) reducesTo_S4096x128x128_S_d0_1_2 h_S_

/-- The sum of the weights over every index, from the word of 0.0. -/
def countSum (x1 x2 : (⟨S4096x128, .i32⟩ : BufTy).Contents (Elt F)) : (⟨S_, .f32⟩ : BufTy).Contents (Elt F) :=
  Host.reduceAdd (weight x1 x2) (constant S_ .f32 0x00000000#32) reducesTo_S4096x128x128_S_d0_1_2 h_S_

/-- The result: the loss over max (count, 1) where the count is positive, the loss itself where it is not. -/
def refOut (x0 : (⟨S4096x128, .f32⟩ : BufTy).Contents (Elt F)) (x1 x2 : (⟨S4096x128, .i32⟩ : BufTy).Contents (Elt F)) : (⟨S_, .f32⟩ : BufTy).Contents (Elt F) :=
  select (cmpf .ogt (countSum x1 x2) (constant S_ .f32 0x00000000#32))
    (Host.divf (lossSum x0 x1 x2) (maximumf (countSum x1 x2) (constant S_ .f32 0x3F800000#32)))
    (lossSum x0 x1 x2)

set_option maxHeartbeats 2000000 in
/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v28).trans (by
        after_results_simp
        unfold refOut lossSum countSum hingeT diff weight topF restF
        rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.HostRun

end
-- ==== Proof.RefValue.lean ====
/-
  The reference's result at the ideal values is the pairwise ranking loss.

  Read at an index (r, i, j) of the [4096, 128, 128] arrays, the weight is the top factor of entry (r, i) times the rest
  factor of entry (r, j), and the hinge array is the hinge of the ordered pair (i, j) of row r: a scalar spread over
  a shape reads the scalar, and an entry array spread along a new axis reads the entry on the other two coordinates.
  A host sum over all three axes from the word of zero is the sum over every index, which is the triple sum over the
  coordinates; so the two host sums are the sums over the rows of the row loss and of the row count, and the program's
  last four operations are the final step applied to those two sums.
-/
import proofs.«157388_j9783935500651_2_alg».proof.Proof.RefRun
import proofs.«157388_j9783935500651_2_alg».proof.Proof.PairSpec
import proofs.«157388_j9783935500651_2_alg».proof.Proof.LibLossSums
import Idealize.ShloMosaic.Lib.Pipeline.Value
import Idealize.ShloMosaic.PureOps.Ideal.Laws
import Idealize.ShloMosaic.Lib.ValueIdx
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## The two spreads of an entry array, read at an index -/

/-- An entry array spread along a new last axis, then over 128 copies of it, reads at (r, i, j) the entry (r, i). -/
theorem spread_left {α : Type} (h1 : S4096x128.BroadcastsInDim S4096x128x1 (![0, 1] : Fin 2 → Fin S4096x128x1.rank))
    (h2 : S4096x128x1.BroadcastsInDim S4096x128x128 (![0, 1, 2] : Fin 3 → Fin S4096x128x128.rank))
    (y : S4096x128.Idx → α) (r : Fin 4096) (i j : Fin 128) :
    broadcastInDim S4096x128x128 ![0, 1, 2] h2 (broadcastInDim S4096x128x1 ![0, 1] h1 y) (ix3 r i j) = y (ix2 r i) := by
  rw [broadcastInDim_apply _ h2 _ (ix3 r i j) (ix3 r i (0 : Fin 1)) (fun a => match a with
    | ⟨0, _⟩ => by show r.val = if (4096 : Nat) = 1 then 0 else r.val; rw [if_neg (by decide)]
    | ⟨1, _⟩ => by show i.val = if (128 : Nat) = 1 then 0 else i.val; rw [if_neg (by decide)]
    | ⟨2, _⟩ => by show 0 = if (1 : Nat) = 1 then 0 else j.val; rw [if_pos rfl])]
  exact broadcastInDim_apply _ h1 y (ix3 r i (0 : Fin 1)) (ix2 r i) (fun a => match a with
    | ⟨0, _⟩ => by show r.val = if (4096 : Nat) = 1 then 0 else r.val; rw [if_neg (by decide)]
    | ⟨1, _⟩ => by show i.val = if (128 : Nat) = 1 then 0 else i.val; rw [if_neg (by decide)])

/-- An entry array spread along a new middle axis, then over 128 copies of it, reads at (r, i, j) the entry (r, j). -/
theorem spread_right {α : Type} (h1 : S4096x128.BroadcastsInDim S4096x1x128 (![0, 2] : Fin 2 → Fin S4096x1x128.rank))
    (h2 : S4096x1x128.BroadcastsInDim S4096x128x128 (![0, 1, 2] : Fin 3 → Fin S4096x128x128.rank))
    (y : S4096x128.Idx → α) (r : Fin 4096) (i j : Fin 128) :
    broadcastInDim S4096x128x128 ![0, 1, 2] h2 (broadcastInDim S4096x1x128 ![0, 2] h1 y) (ix3 r i j) = y (ix2 r j) := by
  rw [broadcastInDim_apply _ h2 _ (ix3 r i j) (ix3 r (0 : Fin 1) j) (fun a => match a with
    | ⟨0, _⟩ => by show r.val = if (4096 : Nat) = 1 then 0 else r.val; rw [if_neg (by decide)]
    | ⟨1, _⟩ => by show 0 = if (1 : Nat) = 1 then 0 else i.val; rw [if_pos rfl]
    | ⟨2, _⟩ => by show j.val = if (128 : Nat) = 1 then 0 else j.val; rw [if_neg (by decide)])]
  exact broadcastInDim_apply _ h1 y (ix3 r (0 : Fin 1) j) (ix2 r j) (fun a => match a with
    | ⟨0, _⟩ => by show r.val = if (4096 : Nat) = 1 then 0 else r.val; rw [if_neg (by decide)]
    | ⟨1, _⟩ => by show j.val = if (128 : Nat) = 1 then 0 else j.val; rw [if_neg (by decide)])

/-! ## The stages read at an index -/

/-- The first factor at entry (r, i) is the top factor of the specification. -/
theorem topF_apply (x1 : S4096x128.Idx → BitVec 32) (r : Fin 4096) (i : Fin 128) :
    HostRun.topF (F := Ideal) x1 (ix2 r i) = PairSpec.top x1 r i := by
  show PairSpec.bit (IntOp.cmpi .eq (x1 (ix2 r i))
    (broadcastInDim S4096x128 ![] bcast_S_S4096x128 (constantI S_ 32 1#32) (ix2 r i))) = _
  rw [broadcastInDim_scalar_apply]
  rfl

/-- The second factor at entry (r, j) is the rest factor of the specification. -/
theorem restF_apply (x1 x2 : S4096x128.Idx → BitVec 32) (r : Fin 4096) (j : Fin 128) :
    HostRun.restF (F := Ideal) x1 x2 (ix2 r j) = PairSpec.rest x1 x2 r j := by
  show PairSpec.bit (IntOp.andi
    (IntOp.cmpi .eq (x1 (ix2 r j)) (broadcastInDim S4096x128 ![] bcast_S_S4096x128 (constantI S_ 32 0#32) (ix2 r j)))
    (IntOp.cmpi .eq (x2 (ix2 r j)) (broadcastInDim S4096x128 ![] bcast_S_S4096x128 (constantI S_ 32 1#32) (ix2 r j)))) = _
  rw [broadcastInDim_scalar_apply, broadcastInDim_scalar_apply]
  rfl

/-- The weight at (r, i, j) is the top factor of (r, i) times the rest factor of (r, j). -/
theorem weight_apply (x1 x2 : S4096x128.Idx → BitVec 32) (r : Fin 4096) (i j : Fin 128) :
    HostRun.weight (F := Ideal) x1 x2 (ix3 r i j) = PairSpec.top x1 r i * PairSpec.rest x1 x2 r j := by
  unfold HostRun.weight
  rw [mulf_apply, spread_left, spread_right, topF_apply, restF_apply]

/-- The difference array at (r, i, j) is s i - s j of row r. -/
theorem diff_apply (x0 : S4096x128.Idx → EReal) (r : Fin 4096) (i j : Fin 128) :
    HostRun.diff (F := Ideal) x0 (ix3 r i j) = x0 (ix2 r i) - x0 (ix2 r j) := by
  unfold HostRun.diff
  rw [subf_apply, spread_left, spread_right]

/-- The hinge array at (r, i, j) is the hinge of the ordered pair (i, j) of row r. -/
theorem hingeT_apply (x0 : S4096x128.Idx → EReal) (r : Fin 4096) (i j : Fin 128) :
    HostRun.hingeT (F := Ideal) x0 (ix3 r i j) = PairSpec.hinge x0 r i j := by
  unfold HostRun.hingeT PairSpec.hinge PairSpec.oneW PairSpec.zeroW
  rw [maximumf_apply, subf_apply, broadcastInDim_scalar_apply, broadcastInDim_scalar_apply, diff_apply]
  rfl

/-! ## The two host sums -/

/-- A host sum of a [4096, 128, 128] array over all three axes, from the word of zero, is the triple sum over the
    coordinates. -/
theorem reduce_total (y : FVec Ideal S4096x128x128 .f32) (k : S_.Idx) :
    Host.reduceAdd y (constant (F := Ideal) S_ .f32 0x00000000#32) reducesTo_S4096x128x128_S_d0_1_2 h_S_ k
      = ∑ r : Fin 4096, ∑ i : Fin 128, ∑ j : Fin 128, y (ix3 r i j) := by
  rw [hostReduceAdd_apply, Ideal.hostReduceAdd_total reducesTo_S4096x128x128_S_d0_1_2 (fun b => b.elim0) y _ k,
    constant_apply, Ideal.ofBits_zero_f32, zero_add]
  exact LibLossSums.sum_idx3 y

/-- The loss sum is the sum over the rows of the row loss. -/
theorem lossSum_eq (x0 : S4096x128.Idx → EReal) (x1 x2 : S4096x128.Idx → BitVec 32) :
    HostRun.lossSum (F := Ideal) x0 x1 x2 = fun _ => ∑ r : Fin 4096, PairSpec.rowLoss x0 x1 x2 r := by
  funext k
  unfold HostRun.lossSum PairSpec.rowLoss
  rw [reduce_total]
  refine Finset.sum_congr rfl fun r _ => Finset.sum_congr rfl fun i _ => Finset.sum_congr rfl fun j _ => ?_
  rw [mulf_apply, hingeT_apply, weight_apply]

/-- The count sum is the sum over the rows of the row count. -/
theorem countSum_eq (x1 x2 : S4096x128.Idx → BitVec 32) :
    HostRun.countSum (F := Ideal) x1 x2 = fun _ => ∑ r : Fin 4096, PairSpec.rowCount x1 x2 r := by
  funext k
  unfold HostRun.countSum PairSpec.rowCount
  rw [reduce_total]
  exact Finset.sum_congr rfl fun r _ => Finset.sum_congr rfl fun i _ => Finset.sum_congr rfl fun j _ =>
    weight_apply x1 x2 r i j

/-! ## The result -/

/-- The reference's result is the final step applied to the sum over the rows of the row loss and the sum over the
    rows of the row count. -/
theorem refOut_eq (x0 : S4096x128.Idx → EReal) (x1 x2 : S4096x128.Idx → BitVec 32) :
    HostRun.refOut (F := Ideal) x0 x1 x2
      = Cert.PairSpec.finish (fun _ => ∑ r : Fin 4096, Cert.PairSpec.rowLoss x0 x1 x2 r)
          (fun _ => ∑ r : Fin 4096, Cert.PairSpec.rowCount x1 x2 r) := by
  rw [← lossSum_eq x0 x1 x2, ← countSum_eq x1 x2]
  rfl

end Cert.ReferenceIdeal.RefValue

end
-- ==== Proof.lean ====
/-
  The certificate of the pairwise ranking loss kernel against its plain reference.

  Both programs compute, over the extended reals, the hinge max (1 - (s i - s j), 0) summed over the pairs (top entry i,
  rest entry j) of every row, and the number of such pairs, and finish with the same step (the loss over max (count, 1)
  where the count is positive). The reference multiplies the hinge by the pair's 0/1 weight and sums over all (row, i, j);
  the kernel, block of 128 rows by block, sums over j first (a batched matrix product with the rest marks), applies the top
  mark of i, sums over i and the rows, and accumulates the block terms into entry (0, 0) of a per-core slab that the host
  then sums whole. A 0/1 factor distributes over any sum of extended reals and finite sums may be regrouped freely, so the
  two totals agree for every input: the precondition is not used for the value claim.

  The three frames: the kernel's and its idealization's are the generated ones; the reference's is its run with the
  result dropped. The idealization rewrote nothing.
-/
import proofs.«157388_j9783935500651_2_alg».proof.Defs
import proofs.«157388_j9783935500651_2_alg».proof.Proof.Gen.Kernel
import proofs.«157388_j9783935500651_2_alg».proof.Proof.Gen.Kernel.Skeleton
import proofs.«157388_j9783935500651_2_alg».proof.Proof.Gen.Kernel.Launch
import proofs.«157388_j9783935500651_2_alg».proof.Proof.Gen.Kernel.Points
import proofs.«157388_j9783935500651_2_alg».proof.Proof.Gen.Kernel.Frame
import proofs.«157388_j9783935500651_2_alg».proof.Proof.Gen.KernelIdeal
import proofs.«157388_j9783935500651_2_alg».proof.Proof.Gen.KernelIdeal.Skeleton
import proofs.«157388_j9783935500651_2_alg».proof.Proof.Gen.KernelIdeal.Launch
import proofs.«157388_j9783935500651_2_alg».proof.Proof.Gen.KernelIdeal.Points
import proofs.«157388_j9783935500651_2_alg».proof.Proof.Gen.KernelIdeal.Frame
import proofs.«157388_j9783935500651_2_alg».proof.Proof.Gen.ReferenceIdeal
import proofs.«157388_j9783935500651_2_alg».proof.Proof.Gen.Pre_finite_inputs
import proofs.«157388_j9783935500651_2_alg».proof.Proof.KernelValue
import proofs.«157388_j9783935500651_2_alg».proof.Proof.RefValue
import Idealize.ShloMosaic.Adequacy
import Idealize.ShloMosaic.Init

noncomputable section

namespace Cert.Proof

open Idealize.ShloMosaic Idealize.SL.Sem Cert.Kernel

open scoped BigOperators

theorem frame_k : Cert.frame_Kernel :=
  fun m ρ _ => Cert.Kernel.Gen.frame m ρ

theorem frame_ki : Cert.frame_KernelIdeal :=
  fun m ρ _ => Cert.KernelIdeal.Gen.frame m ρ

/-- The reference's frame: its run, the result dropped. -/
theorem frame_ri : Cert.frame_ReferenceIdeal :=
  fun m ρ _ => (θ_run Cert.ReferenceIdeal.defs _ _).mono (fun _ h c => (h c).2)
    (Cert.ReferenceIdeal.HostRun.run (F := Ideal) m ρ)

theorem preserves : Cert.preserves_Kernel_KernelIdeal := trivial

/-- Both programs end at the final step applied to the sum over the rows of the row loss and of the row pair count, of
    arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2]
  exact Cert.ReferenceIdeal.RefValue.refOut_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
